-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64 : Shape := ⟨2, ![10000, 64]⟩
abbrev S5000x64 : Shape := ⟨2, ![5000, 64]⟩
abbrev S5000x10000 : Shape := ⟨2, ![5000, 10000]⟩
abbrev S10000x5000 : Shape := ⟨2, ![10000, 5000]⟩
abbrev S448x64 : Shape := ⟨2, ![448, 64]⟩
abbrev S64 : Shape := ⟨1, ![64]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S5000x64 : S_.BroadcastsInDim S5000x64 (![] : Fin 0 → Fin S5000x64.rank)
  reducesTo_S5000x64_S_d0_1 : S5000x64.ReducesTo [0, 1] S_
  bcast_S_S5000x10000 : S_.BroadcastsInDim S5000x10000 (![] : Fin 0 → Fin S5000x10000.rank)
  reducesTo_S5000x10000_S_d0_1 : S5000x10000.ReducesTo [0, 1] S_
  bcast_S_S10000x5000 : S_.BroadcastsInDim S10000x5000 (![] : Fin 0 → Fin S10000x5000.rank)
  reducesTo_S10000x5000_S_d0_1 : S10000x5000.ReducesTo [0, 1] S_
  bcast_S_S448x64 : S_.BroadcastsInDim S448x64 (![] : Fin 0 → Fin S448x64.rank)
  reducesTo_S448x64_S_d0_1 : S448x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S5000x10000 .f32) (main_arg5 : FVec F S10000x5000 .f32) (main_arg6 : FVec F S448x64 .f32) (main_arg7 : FVec F S64 .f32) (main_v13 : IVec S_ 1) (main_v16 : IVec S5000x64 1) : IVec S_ 1 :=
  let main_c_5 : IVec S_ 1 := constantI S_ 1 1#1
  let main_v17 : IVec S_ 1 := (fun x v => Host.reduce IntOp.andi x v reducesTo_S5000x64_S_d0_1 h_S_) main_v16 main_c_5
  let main_v18 : IVec S_ 1 := andi main_v13 main_v17
  let main_v19 : FVec F S5000x10000 .f32 := Host.absf main_arg4
  let main_cst_6 : FVec F S_ .f32 := constant S_ .f32 0x7F800000#32
  let main_v20 : FVec F S5000x10000 .f32 := broadcastInDim S5000x10000 ![] bcast_S_S5000x10000 main_cst_6
  let main_v21 : IVec S5000x10000 1 := cmpf .olt main_v19 main_v20
  let main_c_7 : IVec S_ 1 := constantI S_ 1 1#1
  let main_v22 : IVec S_ 1 := (fun x v => Host.reduce IntOp.andi x v reducesTo_S5000x10000_S_d0_1 h_S_) main_v21 main_c_7
  let main_v23 : IVec S_ 1 := andi main_v18 main_v22
  let main_v24 : FVec F S10000x5000 .f32 := Host.absf main_arg5
  let main_cst_8 : FVec F S_ .f32 := constant S_ .f32 0x7F800000#32
  let main_v25 : FVec F S10000x5000 .f32 := broadcastInDim S10000x5000 ![] bcast_S_S10000x5000 main_cst_8
  let main_v26 : IVec S10000x5000 1 := cmpf .olt main_v24 main_v25
  let main_c_9 : IVec S_ 1 := constantI S_ 1 1#1
  let main_v27 : IVec S_ 1 := (fun x v => Host.reduce IntOp.andi x v reducesTo_S10000x5000_S_d0_1 h_S_) main_v26 main_c_9
  let main_v28 : IVec S_ 1 := andi main_v23 main_v27
  let main_v29 : FVec F S448x64 .f32 := Host.absf main_arg6
  let main_cst_10 : FVec F S_ .f32 := constant S_ .f32 0x7F800000#32
  let main_v30 : FVec F S448x64 .f32 := broadcastInDim S448x64 ![] bcast_S_S448x64 main_cst_10
  let main_v31 : IVec S448x64 1 := cmpf .olt main_v29 main_v30
  let main_c_11 : IVec S_ 1 := constantI S_ 1 1#1
  let main_v32 : IVec S_ 1 := (fun x v => Host.reduce IntOp.andi x v reducesTo_S448x64_S_d0_1 h_S_) main_v31 main_c_11
  let main_v33 : IVec S_ 1 := andi main_v28 main_v32
  fn_part2 (F := F) main_arg7 main_v33

def fn {F : FTy → Type} [FloatOps F] (main_arg0 : FVec F S10000x64 .f32) (main_arg1 : FVec F S10000x64 .f32) (main_arg2 : FVec F S10000x64 .f32) (main_arg3 : FVec F S5000x64 .f32) (main_arg4 : FVec F S5000x10000 .f32) (main_arg5 : FVec F S10000x5000 .f32) (main_arg6 : FVec F S448x64 .f32) (main_arg7 : FVec F S64 .f32) : IVec S_ 1 :=
  let main_v0 : FVec F S10000x64 .f32 := Host.absf main_arg0
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S10000x64 .f32 := Host.absf main_arg2
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  let main_v14 : FVec F S5000x64 .f32 := Host.absf main_arg3
  let main_cst_4 : FVec F S_ .f32 := constant S_ .f32 0x7F800000#32
  let main_v15 : FVec F S5000x64 .f32 := broadcastInDim S5000x64 ![] bcast_S_S5000x64 main_cst_4
  let main_v16 : IVec S5000x64 1 := cmpf .olt main_v14 main_v15
  fn_part1 (F := F) main_arg4 main_arg5 main_arg6 main_arg7 main_v13 main_v16
-- ==== Kernel.lean ====
abbrev S10000x64 : Shape := ⟨2, ![10000, 64]⟩
abbrev S5000x64 : Shape := ⟨2, ![5000, 64]⟩
abbrev S5000x10000 : Shape := ⟨2, ![5000, 10000]⟩
abbrev S10000x5000 : Shape := ⟨2, ![10000, 5000]⟩
abbrev S448x64 : Shape := ⟨2, ![448, 64]⟩
abbrev S64 : Shape := ⟨1, ![64]⟩
abbrev S10000x192 : Shape := ⟨2, ![10000, 192]⟩
abbrev S1x64 : Shape := ⟨2, ![1, 64]⟩
abbrev S200x10000 : Shape := ⟨2, ![200, 10000]⟩
abbrev S200x64 : Shape := ⟨2, ![200, 64]⟩
abbrev S200x192 : Shape := ⟨2, ![200, 192]⟩
abbrev S200x448 : Shape := ⟨2, ![200, 448]⟩
abbrev S400x5000 : Shape := ⟨2, ![400, 5000]⟩
abbrev S400x64 : Shape := ⟨2, ![400, 64]⟩

abbrev nBuf : Space → Nat
  | .hbm => 14
  | .vmem => 16
  | .smem => 0
  | _ => 0

abbrev bufTy : (tb : Table) → Fin (tcTables nBuf tb) → BufTy
  | .hbm, ⟨0, _⟩ => ⟨S10000x64, .f32⟩
  | .hbm, ⟨1, _⟩ => ⟨S10000x64, .f32⟩
  | .hbm, ⟨2, _⟩ => ⟨S10000x64, .f32⟩
  | .hbm, ⟨3, _⟩ => ⟨S5000x64, .f32⟩
  | .hbm, ⟨4, _⟩ => ⟨S5000x10000, .f32⟩
  | .hbm, ⟨5, _⟩ => ⟨S10000x5000, .f32⟩
  | .hbm, ⟨6, _⟩ => ⟨S448x64, .f32⟩
  | .hbm, ⟨7, _⟩ => ⟨S64, .f32⟩
  | .hbm, ⟨8, _⟩ => ⟨S10000x192, .f32⟩
  | .hbm, ⟨9, _⟩ => ⟨S1x64, .f32⟩
  | .hbm, ⟨10, _⟩ => ⟨S5000x64, .f32⟩
  | .hbm, ⟨11, _⟩ => ⟨S10000x5000, .bf16⟩
  | .hbm, ⟨12, _⟩ => ⟨S5000x64, .bf16⟩
  | .hbm, ⟨13, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S10000x192, .f32⟩
  | .local _ .vmem, ⟨3, _⟩ => ⟨S200x64, .f32⟩
  | .local _ .vmem, ⟨4, _⟩ => ⟨S200x64, .f32⟩
  | .local _ .vmem, ⟨5, _⟩ => ⟨S448x64, .f32⟩
  | .local _ .vmem, ⟨6, _⟩ => ⟨S1x64, .f32⟩
  | .local _ .vmem, ⟨7, _⟩ => ⟨S200x64, .f32⟩
  | .local _ .vmem, ⟨8, _⟩ => ⟨S200x64, .f32⟩
  | .local _ .vmem, ⟨9, _⟩ => ⟨S400x5000, .bf16⟩
  | .local _ .vmem, ⟨10, _⟩ => ⟨S400x5000, .bf16⟩
  | .local _ .vmem, ⟨11, _⟩ => ⟨S5000x64, .bf16⟩
  | .local _ .vmem, ⟨12, _⟩ => ⟨S400x64, .f32⟩
  | .local _ .vmem, ⟨13, _⟩ => ⟨S400x64, .f32⟩
  | .local _ .vmem, ⟨14, _⟩ => ⟨S400x64, .f32⟩
  | .local _ .vmem, ⟨15, _⟩ => ⟨S400x64, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S448x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x5000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S10000x64_S10000x64_S10000x64_S10000x192_d1 : Shape.Concatenates [S10000x64, S10000x64, S10000x64] S10000x192 1
  shapeCasts_S64_S1x64 : S64.ShapeCasts S1x64
  inb_S200x10000_S200x10000_0_0 : ∀ a, (![0, 0] : Fin 2 → Nat) a + S200x10000.size a ≤ S200x10000.size a
  h_S200x10000 : 0 < S200x10000.numel
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  slices_S200x192_o0_0_S200x64 : S200x192.Slices ![0, 0] S200x64
  slices_S200x192_o0_64_S200x64 : S200x192.Slices ![0, 64] S200x64
  slices_S200x192_o0_128_S200x64 : S200x192.Slices ![0, 128] S200x64
  concatenates_S200x64_S200x64_S200x64_S200x64_S200x64_S200x64_S200x64_S200x448_d1 : Shape.Concatenates [S200x64, S200x64, S200x64, S200x64, S200x64, S200x64, S200x64] S200x448 1
  inb_S448x64_S448x64_0_0 : ∀ a, (![0, 0] : Fin 2 → Nat) a + S448x64.size a ≤ S448x64.size a
  h_S448x64 : 0 < S448x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  bitsLt_bf16_f32 : FTy.bits .bf16 < FTy.bits .f32
  inb_S400x64_S400x64_0_0 : ∀ a, (![0, 0] : Fin 2 → Nat) a + S400x64.size a ≤ S400x64.size a
  h_S400x64 : 0 < S400x64.numel
  inb_S400x5000_S400x5000_0_0 : ∀ a, (![0, 0] : Fin 2 → Nat) a + S400x5000.size a ≤ S400x5000.size a
  h_S400x5000 : 0 < S400x5000.numel
  shapeCasts_S400x5000_S400x5000 : S400x5000.ShapeCasts S400x5000
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  dot_S200x10000_S10000x192_S200x192_1_0_0_1_n_n_wf : DotDims.WF S200x10000 S10000x192 S200x192 [1] [0] [0] [1] [] []
  dot_S200x448_S448x64_S200x64_1_0_0_1_n_n_wf : DotDims.WF S200x448 S448x64 S200x64 [1] [0] [0] [1] [] []
  dot_S400x5000_S5000x64_S400x64_1_0_0_1_n_n_wf : DotDims.WF S400x5000 S5000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S5000x10000.size a
  hwx0_0 : ∀ i : grid0.Coords, EltTy.bits .f32 = 32 ∨ (Rect.block (s := S5000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x192.size a ≤ S10000x192.size a
  hwx0_1 : ∀ i : grid0.Coords, EltTy.bits .f32 = 32 ∨ (Rect.block (s := S10000x192) S10000x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S5000x64.size a
  hwx0_2 : ∀ i : grid0.Coords, EltTy.bits .f32 = 32 ∨ (Rect.block (s := S5000x64) S200x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S448x64.size a ≤ S448x64.size a
  hwx0_3 : ∀ i : grid0.Coords, EltTy.bits .f32 = 32 ∨ (Rect.block (s := S448x64) S448x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x64.size a ≤ S5000x64.size a
  hwx0_5 : ∀ i : grid0.Coords, EltTy.bits .f32 = 32 ∨ (Rect.block (s := S5000x64) S200x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x5000.size a ≤ S10000x5000.size a
  hwx1_0 : ∀ i : grid1.Coords, EltTy.bits .bf16 = 32 ∨ (Rect.block (s := S10000x5000) S400x5000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S5000x64.size a
  hwx1_1 : ∀ i : grid1.Coords, EltTy.bits .bf16 = 32 ∨ (Rect.block (s := S5000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x64.size a ≤ S10000x64.size a
  hwx1_2 : ∀ i : grid1.Coords, EltTy.bits .f32 = 32 ∨ (Rect.block (s := S10000x64) S400x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)

variable [Facts₀]

def dot_S200x10000_S10000x192_S200x192_1_0_0_1_n_n : DotDims S200x10000 S10000x192 S200x192 where
  lhsContracting := [1]
  rhsContracting := [0]
  lhsNonContracting := [0]
  rhsNonContracting := [1]
  lhsBatch := []
  rhsBatch := []
  wf := dot_S200x10000_S10000x192_S200x192_1_0_0_1_n_n_wf
def dot_S200x448_S448x64_S200x64_1_0_0_1_n_n : DotDims S200x448 S448x64 S200x64 where
  lhsContracting := [1]
  rhsContracting := [0]
  lhsNonContracting := [0]
  rhsNonContracting := [1]
  lhsBatch := []
  rhsBatch := []
  wf := dot_S200x448_S448x64_S200x64_1_0_0_1_n_n_wf
def dot_S400x5000_S5000x64_S400x64_1_0_0_1_n_n : DotDims S400x5000 S5000x64 S400x64 where
  lhsContracting := [1]
  rhsContracting := [0]
  lhsNonContracting := [0]
  rhsNonContracting := [1]
  lhsBatch := []
  rhsBatch := []
  wf := dot_S400x5000_S5000x64_S400x64_1_0_0_1_n_n_wf

abbrev win0_0 : Pipeline.Window sig grid0 :=
  Pipeline.Window.ofSpec (Memref.whole main_arg4) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S448x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S200x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3) S400x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S400x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x64 : Shape := ⟨2, ![10000, 64]⟩
abbrev S5000x64 : Shape := ⟨2, ![5000, 64]⟩
abbrev S5000x10000 : Shape := ⟨2, ![5000, 10000]⟩
abbrev S10000x5000 : Shape := ⟨2, ![10000, 5000]⟩
abbrev S448x64 : Shape := ⟨2, ![448, 64]⟩
abbrev S64 : Shape := ⟨1, ![64]⟩
abbrev S5000x448 : Shape := ⟨2, ![5000, 448]⟩
abbrev S1x64 : Shape := ⟨2, ![1, 64]⟩
abbrev S1x10000x64 : Shape := ⟨3, ![1, 10000, 64]⟩
abbrev S3x10000x64 : Shape := ⟨3, ![3, 10000, 64]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S10000x64, .f32⟩
  | .hbm, ⟨1, _⟩ => ⟨S10000x64, .f32⟩
  | .hbm, ⟨2, _⟩ => ⟨S10000x64, .f32⟩
  | .hbm, ⟨3, _⟩ => ⟨S5000x64, .f32⟩
  | .hbm, ⟨4, _⟩ => ⟨S5000x10000, .f32⟩
  | .hbm, ⟨5, _⟩ => ⟨S10000x5000, .f32⟩
  | .hbm, ⟨6, _⟩ => ⟨S448x64, .f32⟩
  | .hbm, ⟨7, _⟩ => ⟨S64, .f32⟩
  | .hbm, ⟨8, _⟩ => ⟨S5000x64, .f32⟩
  | .hbm, ⟨9, _⟩ => ⟨S5000x64, .f32⟩
  | .hbm, ⟨10, _⟩ => ⟨S5000x64, .f32⟩
  | .hbm, ⟨11, _⟩ => ⟨S5000x64, .f32⟩
  | .hbm, ⟨12, _⟩ => ⟨S5000x64, .f32⟩
  | .hbm, ⟨13, _⟩ => ⟨S5000x64, .f32⟩
  | .hbm, ⟨14, _⟩ => ⟨S5000x64, .f32⟩
  | .hbm, ⟨15, _⟩ => ⟨S5000x64, .f32⟩
  | .hbm, ⟨16, _⟩ => ⟨S5000x448, .f32⟩
  | .hbm, ⟨17, _⟩ => ⟨S5000x64, .f32⟩
  | .hbm, ⟨18, _⟩ => ⟨S1x64, .f32⟩
  | .hbm, ⟨19, _⟩ => ⟨S5000x64, .f32⟩
  | .hbm, ⟨20, _⟩ => ⟨S5000x64, .f32⟩
  | .hbm, ⟨21, _⟩ => ⟨S5000x64, .f32⟩
  | .hbm, ⟨22, _⟩ => ⟨S5000x64, .f32⟩
  | .hbm, ⟨23, _⟩ => ⟨S5000x64, .f32⟩
  | .hbm, ⟨24, _⟩ => ⟨S10000x64, .f32⟩
  | .hbm, ⟨25, _⟩ => ⟨S10000x64, .f32⟩
  | .hbm, ⟨26, _⟩ => ⟨S5000x64, .f32⟩
  | .hbm, ⟨27, _⟩ => ⟨S5000x64, .f32⟩
  | .hbm, ⟨28, _⟩ => ⟨S5000x64, .f32⟩
  | .hbm, ⟨29, _⟩ => ⟨S5000x64, .f32⟩
  | .hbm, ⟨30, _⟩ => ⟨S5000x64, .f32⟩
  | .hbm, ⟨31, _⟩ => ⟨S5000x64, .f32⟩
  | .hbm, ⟨32, _⟩ => ⟨S5000x64, .f32⟩
  | .hbm, ⟨33, _⟩ => ⟨S5000x64, .f32⟩
  | .hbm, ⟨34, _⟩ => ⟨S5000x448, .f32⟩
  | .hbm, ⟨35, _⟩ => ⟨S5000x64, .f32⟩
  | .hbm, ⟨36, _⟩ => ⟨S1x64, .f32⟩
  | .hbm, ⟨37, _⟩ => ⟨S5000x64, .f32⟩
  | .hbm, ⟨38, _⟩ => ⟨S5000x64, .f32⟩
  | .hbm, ⟨39, _⟩ => ⟨S5000x64, .f32⟩
  | .hbm, ⟨40, _⟩ => ⟨S5000x64, .f32⟩
  | .hbm, ⟨41, _⟩ => ⟨S5000x64, .f32⟩
  | .hbm, ⟨42, _⟩ => ⟨S10000x64, .f32⟩
  | .hbm, ⟨43, _⟩ => ⟨S10000x64, .f32⟩
  | .hbm, ⟨44, _⟩ => ⟨S1x10000x64, .f32⟩
  | .hbm, ⟨45, _⟩ => ⟨S1x10000x64, .f32⟩
  | .hbm, ⟨46, _⟩ => ⟨S1x10000x64, .f32⟩
  | .hbm, ⟨47, _⟩ => ⟨S3x10000x64, .f32⟩
  | .hbm, ⟨48, _⟩ => ⟨S_, .f32⟩
  | .hbm, ⟨49, _⟩ => ⟨S10000x64, .f32⟩
  | .hbm, ⟨50, _⟩ => ⟨S_, .f32⟩
  | .hbm, ⟨51, _⟩ => ⟨S10000x64, .f32⟩
  | .hbm, ⟨52, _⟩ => ⟨S10000x64, .f32⟩
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst : Ref sig .tc := ⟨.hbm, 48, rfl⟩
abbrev main_v40 : Ref sig .tc := ⟨.hbm, 49, rfl⟩
abbrev main_cst_0 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]

class Facts₀ : Prop where
  concatenates_S5000x64_S5000x64_S5000x64_S5000x64_S5000x64_S5000x64_S5000x64_S5000x448_d1 : Shape.Concatenates [S5000x64, S5000x64, S5000x64, S5000x64, S5000x64, S5000x64, S5000x64] S5000x448 1
  bcast_S64_S1x64_1 : S64.BroadcastsInDim S1x64 (![1] : Fin 1 → Fin S1x64.rank)
  bcast_S1x64_S5000x64_0_1 : S1x64.BroadcastsInDim S5000x64 (![0, 1] : Fin 2 → Fin S5000x64.rank)
  bcast_S10000x64_S1x10000x64_1_2 : S10000x64.BroadcastsInDim S1x10000x64 (![1, 2] : Fin 2 → Fin S1x10000x64.rank)
  concatenates_S1x10000x64_S1x10000x64_S1x10000x64_S3x10000x64_d0 : Shape.Concatenates [S1x10000x64, S1x10000x64, S1x10000x64] S3x10000x64 0
  reducesTo_S3x10000x64_S10000x64_d0 : S3x10000x64.ReducesTo [0] S10000x64
  h_S_ : 0 < S_.numel
  bcast_S_S10000x64 : S_.BroadcastsInDim S10000x64 (![] : Fin 0 → Fin S10000x64.rank)
  dot_S5000x10000_S10000x64_S5000x64_1_0_0_1_n_n_wf : DotDims.WF S5000x10000 S10000x64 S5000x64 [1] [0] [0] [1] [] []
  dot_S5000x448_S448x64_S5000x64_1_0_0_1_n_n_wf : DotDims.WF S5000x448 S448x64 S5000x64 [1] [0] [0] [1] [] []
  dot_S10000x5000_S5000x64_S10000x64_1_0_0_1_n_n_wf : DotDims.WF S10000x5000 S5000x64 S10000x64 [1] [0] [0] [1] [] []

variable [Facts₀]

def dot_S5000x10000_S10000x64_S5000x64_1_0_0_1_n_n : DotDims S5000x10000 S10000x64 S5000x64 where
  lhsContracting := [1]
  rhsContracting := [0]
  lhsNonContracting := [0]
  rhsNonContracting := [1]
  lhsBatch := []
  rhsBatch := []
  wf := dot_S5000x10000_S10000x64_S5000x64_1_0_0_1_n_n_wf
def dot_S5000x448_S448x64_S5000x64_1_0_0_1_n_n : DotDims S5000x448 S448x64 S5000x64 where
  lhsContracting := [1]
  rhsContracting := [0]
  lhsNonContracting := [0]
  rhsNonContracting := [1]
  lhsBatch := []
  rhsBatch := []
  wf := dot_S5000x448_S448x64_S5000x64_1_0_0_1_n_n_wf
def dot_S10000x5000_S5000x64_S10000x64_1_0_0_1_n_n : DotDims S10000x5000 S5000x64 S10000x64 where
  lhsContracting := [1]
  rhsContracting := [0]
  lhsNonContracting := [0]
  rhsNonContracting := [1]
  lhsBatch := []
  rhsBatch := []
  wf := dot_S10000x5000_S5000x64_S10000x64_1_0_0_1_n_n_wf

class Facts : Prop extends Facts₀ where

variable [Facts]
-- ==== Proof.KFrameRegion0.lean ====
/-
  The first call (users' side), at any float instance: one grid point takes a block of 200 incidence rows, the joined
  table [geo | seq | poi], the fusion weights and bias row and the block's 200 users, and stores the block's gated
  embeddings. Here: each window's block at a point, what the body leaves in the output block (its one store), the
  body's run on whole staging buffers, and the per-point obligation of the staged pipeline.
-/
import proofs.«146408_g23742579212952_cont_8to1_365_25_alg».proof.Proof.Gen.Kernel.Launch
import proofs.«146408_g23742579212952_cont_8to1_365_25_alg».proof.Proof.Gen.Kernel.Skeleton
import proofs.«146408_g23742579212952_cont_8to1_365_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 0: the call of `cc0__stage1_body`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S200x10000 := Rect.unit (s := S200x10000) ![0, 0] S200x10000.size inb_S200x10000_S200x10000_0_0
abbrev r0_1 : Rect S10000x192 := Rect.unit (s := S10000x192) ![0, 0] S10000x192.size inb_S10000x192_S10000x192_0_0
abbrev r0_2 : Rect S200x64 := Rect.unit (s := S200x64) ![0, 0] S200x64.size inb_S200x64_S200x64_0_0
abbrev r0_3 : Rect S448x64 := Rect.unit (s := S448x64) ![0, 0] S448x64.size inb_S448x64_S448x64_0_0
abbrev r0_4 : Rect S1x64 := Rect.unit (s := S1x64) ![0, 0] S1x64.size inb_S1x64_S1x64_0_0
abbrev r0_5 : Rect S200x64 := Rect.unit (s := S200x64) ![0, 0] S200x64.size inb_S200x64_S200x64_0_0

/-- The output window's staging buffer after the body, from the input windows' blocks: its one store. -/
def out0_5 (x0 : Vec F S200x10000 .f32) (x1 : Vec F S10000x192 .f32) (x2 : Vec F S200x64 .f32) (x3 : Vec F S448x64 .f32) (x4 : Vec F S1x64 .f32) : Vec F S200x64 .f32 :=
  View.canon [⟨r0_5, k0_pay1 (View.ld x0 r0_0) (View.ld x1 r0_1) (View.ld x3 r0_3) (View.ld x4 r0_4) (View.ld x2 r0_2)⟩]

/-- The one store covers the buffer. -/
theorem cover0_5 (p0 : Vec F S200x64 .f32) (y : S200x64.Idx) :
    ∃ pc ∈ ([⟨r0_5, p0⟩] : List (View.Piece (Elt F) S200x64 .f32)), y ∈ pc.1.set :=
  View.cover_of_tiled [⟨r0_5, p0⟩] S200x64.size (by rfl) y

set_option maxHeartbeats 1000000 in
/-- The body on whole staging memrefs, the inputs' at given contents and the output's at anything, runs to the continuation
    holding the inputs' as they were and the output's at `out0_5` of the inputs'. -/
theorem sound_kernel0 (c : Dev nD) (E : Set ℕ) (i : grid0.Coords) (arg1 : Memref sig .tc .vmem S200x10000 .f32) (harg1 : arg1.IsWhole) (arg2 : Memref sig .tc .vmem S10000x192 .f32) (harg2 : arg2.IsWhole) (arg3 : Memref sig .tc .vmem S200x64 .f32) (harg3 : arg3.IsWhole) (arg4 : Memref sig .tc .vmem S448x64 .f32) (harg4 : arg4.IsWhole) (arg5 : Memref sig .tc .vmem S1x64 .f32) (harg5 : arg5.IsWhole) (arg6 : Memref sig .tc .vmem S200x64 .f32) (harg6 : arg6.IsWhole)
    (x0 : Vec F S200x10000 .f32) (x1 : Vec F S10000x192 .f32) (x2 : Vec F S200x64 .f32) (x3 : Vec F S448x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__stage1_body i arg1 harg1 arg2 harg2 arg3 harg3 arg4 harg4 arg5 harg5 arg6 harg6) K := by
  simp only [cc0__stage1_body_eq_skeleton]; unfold cc0__stage1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`: the arrays as the region finds them; after the body at point `t` each
    input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KFrameRegion1.lean ====
/-
  The second call (points' side), at any float instance: one grid point takes a block of 400 incidence rows, all the
  users' gated embeddings and the block's 400 start rows, and stores start + incidence · embeddings. Here: each
  window's block at a point, what the body leaves in the output block (its one store), the body's run on whole
  staging buffers, and the per-point obligation of the staged pipeline.
-/
import proofs.«146408_g23742579212952_cont_8to1_365_25_alg».proof.Proof.Gen.Kernel.Launch
import proofs.«146408_g23742579212952_cont_8to1_365_25_alg».proof.Proof.Gen.Kernel.Skeleton
import proofs.«146408_g23742579212952_cont_8to1_365_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 1: the call of `cc1__stage2_body`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x5000 := Rect.unit (s := S400x5000) ![0, 0] S400x5000.size inb_S400x5000_S400x5000_0_0
abbrev r1_1 : Rect S5000x64 := Rect.unit (s := S5000x64) ![0, 0] S5000x64.size inb_S5000x64_S5000x64_0_0
abbrev r1_2 : Rect S400x64 := Rect.unit (s := S400x64) ![0, 0] S400x64.size inb_S400x64_S400x64_0_0
abbrev r1_3 : Rect S400x64 := Rect.unit (s := S400x64) ![0, 0] S400x64.size inb_S400x64_S400x64_0_0

/-- The output window's staging buffer after the body, from the input windows' blocks: its one store. -/
def out1_3 (x0 : Vec F S400x5000 .bf16) (x1 : Vec F S5000x64 .bf16) (x2 : Vec F S400x64 .f32) : Vec F S400x64 .f32 :=
  View.canon [⟨r1_3, k1_pay1 (View.ld x2 r1_2) (View.ld x0 r1_0) (View.ld x1 r1_1)⟩]

/-- The one store covers the buffer. -/
theorem cover1_3 (p0 : Vec F S400x64 .f32) (y : S400x64.Idx) :
    ∃ pc ∈ ([⟨r1_3, p0⟩] : List (View.Piece (Elt F) S400x64 .f32)), y ∈ pc.1.set :=
  View.cover_of_tiled [⟨r1_3, p0⟩] S400x64.size (by rfl) y

set_option maxHeartbeats 1000000 in
/-- The body on whole staging memrefs, the inputs' at given contents and the output's at anything, runs to the continuation
    holding the inputs' as they were and the output's at `out1_3` of the inputs'. -/
theorem sound_kernel1 (c : Dev nD) (E : Set ℕ) (i : grid1.Coords) (arg1 : Memref sig .tc .vmem S400x5000 .bf16) (harg1 : arg1.IsWhole) (arg2 : Memref sig .tc .vmem S5000x64 .bf16) (harg2 : arg2.IsWhole) (arg3 : Memref sig .tc .vmem S400x64 .f32) (harg3 : arg3.IsWhole) (arg4 : Memref sig .tc .vmem S400x64 .f32) (harg4 : arg4.IsWhole)
    (x0 : Vec F S400x5000 .bf16) (x1 : Vec F S5000x64 .bf16) (x2 : Vec F S400x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__stage2_body i arg1 harg1 arg2 harg2 arg3 harg3 arg4 harg4) K := by
  simp only [cc1__stage2_body_eq_skeleton]; unfold cc1__stage2_body_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KFrameRun.lean ====
/-
  The whole program at any float instance: the host joins [geo | seq | poi] and views the bias as a row; the first call
  writes the users' gated embeddings; the host rounds the point-by-user incidence and the embeddings to bf16; the second
  call writes the result. Here: the buffers' contents at each boundary as a fold from the launch memory (a host stretch
  applies its operations; a call leaves its arrays at what its write-backs give and everything else alone), each call as
  a segment over "every unscoped buffer at the boundary's contents", and the run: every fair execution ends, faults
  nowhere, and leaves every unscoped buffer at the last boundary's contents — so each argument as launched and the
  result at what the second call's write-backs give.
-/
import proofs.«146408_g23742579212952_cont_8to1_365_25_alg».proof.Proof.Gen.Kernel.Launch
import proofs.«146408_g23742579212952_cont_8to1_365_25_alg».proof.Proof.Gen.Kernel.Skeleton
import proofs.«146408_g23742579212952_cont_8to1_365_25_alg».proof.Proof.Gen.Kernel.Points
import proofs.«146408_g23742579212952_cont_8to1_365_25_alg».proof.Proof.KFrameRegion0
import proofs.«146408_g23742579212952_cont_8to1_365_25_alg».proof.Proof.KFrameRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps0_writes : (hostOps0 : List (HloOp τ sig (Elt F))).Forall fun op => op.writes ⊆ (([main_v0, main_v1] : List (Ref sig .tc)).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_writes : (hostOps1 : List (HloOp τ sig (Elt F))).Forall fun op => op.writes ⊆ (([main_v3, main_v4] : List (Ref sig .tc)).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- The first stretch leaves every buffer but the joined table and the bias row alone. -/
theorem after0_of (X : Valuation τ sig (Elt F)) (r : Ref sig .tc) (h : r ∉ ([main_v0, main_v1] : List (Ref sig .tc))) :
    StableHlo.after hostOps0 X (Proc.devRef .tc r) = X (Proc.devRef .tc r) :=
  StableHlo.after_of_writes_sub hostOps0 _ hostOps0_writes h
/-- The second stretch leaves every buffer but the two rounded copies alone. -/
theorem after1_of (X : Valuation τ sig (Elt F)) (r : Ref sig .tc) (h : r ∉ ([main_v3, main_v4] : List (Ref sig .tc))) :
    StableHlo.after hostOps1 X (Proc.devRef .tc r) = X (Proc.devRef .tc r) :=
  StableHlo.after_of_writes_sub hostOps1 _ hostOps1_writes h

/-! ## The buffers' contents at each boundary -/

/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- `main_arg0` ends as launched: no host operation writes it and no call changes it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 2).trans (((dat1 (V3 m ρ) c).arrAt_in 2 rfl _).trans (A_eq1 (V3 m ρ) c 2))
    _ = W2 m ρ c (Proc.devRef .tc main_arg0) := after1_of (W2 m ρ c) main_arg0 (by decide)
    _ = W1 m ρ c (Proc.devRef .tc main_arg0) := W2_of_ne m ρ c main_arg0 (by decide)
    _ = W0 m ρ c (Proc.devRef .tc main_arg0) := after0_of (W0 m ρ c) main_arg0 (by decide)
    _ = m ((c : Thread nD τ).loc main_arg0) := rfl

/-- `main_arg1` ends as launched: no host operation writes it and no call changes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := after1_of (W2 m ρ c) main_arg1 (by decide)
    _ = W1 m ρ c (Proc.devRef .tc main_arg1) := W2_of_ne m ρ c main_arg1 (by decide)
    _ = W0 m ρ c (Proc.devRef .tc main_arg1) := after0_of (W0 m ρ c) main_arg1 (by decide)
    _ = m ((c : Thread nD τ).loc main_arg1) := rfl

/-- `main_arg2` ends as launched: no host operation writes it and no call changes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := after1_of (W2 m ρ c) main_arg2 (by decide)
    _ = W1 m ρ c (Proc.devRef .tc main_arg2) := W2_of_ne m ρ c main_arg2 (by decide)
    _ = W0 m ρ c (Proc.devRef .tc main_arg2) := after0_of (W0 m ρ c) main_arg2 (by decide)
    _ = m ((c : Thread nD τ).loc main_arg2) := rfl

/-- `main_arg3` ends as launched: no host operation writes it and no call changes it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := after1_of (W2 m ρ c) main_arg3 (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := after0_of (W0 m ρ c) main_arg3 (by decide)
    _ = m ((c : Thread nD τ).loc main_arg3) := rfl

/-- `main_arg4` ends as launched: no host operation writes it and no call changes it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := after1_of (W2 m ρ c) main_arg4 (by decide)
    _ = W1 m ρ c (Proc.devRef .tc main_arg4) := (W2_arr m ρ c 0).trans (((dat0 (V1 m ρ) c).arrAt_in 0 rfl _).trans (A_eq0 (V1 m ρ) c 0))
    _ = W0 m ρ c (Proc.devRef .tc main_arg4) := after0_of (W0 m ρ c) main_arg4 (by decide)
    _ = m ((c : Thread nD τ).loc main_arg4) := rfl

/-- `main_arg5` ends as launched: no host operation writes it and no call changes it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := after1_of (W2 m ρ c) main_arg5 (by decide)
    _ = W1 m ρ c (Proc.devRef .tc main_arg5) := W2_of_ne m ρ c main_arg5 (by decide)
    _ = W0 m ρ c (Proc.devRef .tc main_arg5) := after0_of (W0 m ρ c) main_arg5 (by decide)
    _ = m ((c : Thread nD τ).loc main_arg5) := rfl

/-- `main_arg6` ends as launched: no host operation writes it and no call changes it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := after1_of (W2 m ρ c) main_arg6 (by decide)
    _ = W1 m ρ c (Proc.devRef .tc main_arg6) := (W2_arr m ρ c 3).trans (((dat0 (V1 m ρ) c).arrAt_in 3 rfl _).trans (A_eq0 (V1 m ρ) c 3))
    _ = W0 m ρ c (Proc.devRef .tc main_arg6) := after0_of (W0 m ρ c) main_arg6 (by decide)
    _ = m ((c : Thread nD τ).loc main_arg6) := rfl

/-- `main_arg7` ends as launched: no host operation writes it and no call changes it. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := after1_of (W2 m ρ c) main_arg7 (by decide)
    _ = W1 m ρ c (Proc.devRef .tc main_arg7) := W2_of_ne m ρ c main_arg7 (by decide)
    _ = W0 m ρ c (Proc.devRef .tc main_arg7) := after0_of (W0 m ρ c) main_arg7 (by decide)
    _ = m ((c : Thread nD τ).loc main_arg7) := rfl

/-! ## The proof data family and the thread state -/

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the core's generator register and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W4 m ρ c) ∗ ∃ r, prngReg c r)

/-! ## The calls as segments -/

-- a lemma stated over the pinned configuration unifies with the printed one only when unification may unfold plain
-- definitions in a metavariable's type
set_option backward.isDefEq.respectTransparency.types false in
/-- Call 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a lemma stated over the pinned configuration unifies with the printed one only when unification may unfold plain
-- definitions in a metavariable's type
set_option backward.isDefEq.respectTransparency.types false in
/-- Call 1 over the thread state: entered from every unscoped buffer at `W3`, left at `W4`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every fair execution of the program ends, faults nowhere, and leaves
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every fair execution ends, faults nowhere, and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

/-- THE RESULT: the same run also leaves the result array at what the second call's write-backs give. -/
theorem run_result : θ_run defs (onTc (τ := τ) (main (F := F))) ⟨m, fun _ => 0, ρ⟩ (fun r => ∀ c : Dev nD,
      r.2.mem ((c.tc : Thread nD τ).loc main_v5) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.Kernel.Frame

end
-- ==== Proof.FrameRegion0.lean ====
/-
  The first call (users' side), at any float instance: one grid point takes a block of 200 incidence rows, the joined
  table [geo | seq | poi], the fusion weights and bias row and the block's 200 users, and stores the block's gated
  embeddings. Here: each window's block at a point, what the body leaves in the output block (its one store), the
  body's run on whole staging buffers, and the per-point obligation of the staged pipeline.
-/
import proofs.«146408_g23742579212952_cont_8to1_365_25_alg».proof.Proof.Gen.KernelIdeal.Launch
import proofs.«146408_g23742579212952_cont_8to1_365_25_alg».proof.Proof.Gen.KernelIdeal.Skeleton
import proofs.«146408_g23742579212952_cont_8to1_365_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 0: the call of `cc0__stage1_body`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S200x10000 := Rect.unit (s := S200x10000) ![0, 0] S200x10000.size inb_S200x10000_S200x10000_0_0
abbrev r0_1 : Rect S10000x192 := Rect.unit (s := S10000x192) ![0, 0] S10000x192.size inb_S10000x192_S10000x192_0_0
abbrev r0_2 : Rect S200x64 := Rect.unit (s := S200x64) ![0, 0] S200x64.size inb_S200x64_S200x64_0_0
abbrev r0_3 : Rect S448x64 := Rect.unit (s := S448x64) ![0, 0] S448x64.size inb_S448x64_S448x64_0_0
abbrev r0_4 : Rect S1x64 := Rect.unit (s := S1x64) ![0, 0] S1x64.size inb_S1x64_S1x64_0_0
abbrev r0_5 : Rect S200x64 := Rect.unit (s := S200x64) ![0, 0] S200x64.size inb_S200x64_S200x64_0_0

/-- The output window's staging buffer after the body, from the input windows' blocks: its one store. -/
def out0_5 (x0 : Vec F S200x10000 .f32) (x1 : Vec F S10000x192 .f32) (x2 : Vec F S200x64 .f32) (x3 : Vec F S448x64 .f32) (x4 : Vec F S1x64 .f32) : Vec F S200x64 .f32 :=
  View.canon [⟨r0_5, k0_pay1 (View.ld x0 r0_0) (View.ld x1 r0_1) (View.ld x3 r0_3) (View.ld x4 r0_4) (View.ld x2 r0_2)⟩]

/-- The one store covers the buffer. -/
theorem cover0_5 (p0 : Vec F S200x64 .f32) (y : S200x64.Idx) :
    ∃ pc ∈ ([⟨r0_5, p0⟩] : List (View.Piece (Elt F) S200x64 .f32)), y ∈ pc.1.set :=
  View.cover_of_tiled [⟨r0_5, p0⟩] S200x64.size (by rfl) y

set_option maxHeartbeats 1000000 in
/-- The body on whole staging memrefs, the inputs' at given contents and the output's at anything, runs to the continuation
    holding the inputs' as they were and the output's at `out0_5` of the inputs'. -/
theorem sound_kernel0 (c : Dev nD) (E : Set ℕ) (i : grid0.Coords) (arg1 : Memref sig .tc .vmem S200x10000 .f32) (harg1 : arg1.IsWhole) (arg2 : Memref sig .tc .vmem S10000x192 .f32) (harg2 : arg2.IsWhole) (arg3 : Memref sig .tc .vmem S200x64 .f32) (harg3 : arg3.IsWhole) (arg4 : Memref sig .tc .vmem S448x64 .f32) (harg4 : arg4.IsWhole) (arg5 : Memref sig .tc .vmem S1x64 .f32) (harg5 : arg5.IsWhole) (arg6 : Memref sig .tc .vmem S200x64 .f32) (harg6 : arg6.IsWhole)
    (x0 : Vec F S200x10000 .f32) (x1 : Vec F S10000x192 .f32) (x2 : Vec F S200x64 .f32) (x3 : Vec F S448x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__stage1_body i arg1 harg1 arg2 harg2 arg3 harg3 arg4 harg4 arg5 harg5 arg6 harg6) K := by
  simp only [cc0__stage1_body_eq_skeleton]; unfold cc0__stage1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`: the arrays as the region finds them; after the body at point `t` each
    input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.FrameRegion1.lean ====
/-
  The second call (points' side), at any float instance: one grid point takes a block of 400 incidence rows, all the
  users' gated embeddings and the block's 400 start rows, and stores start + incidence · embeddings. Here: each
  window's block at a point, what the body leaves in the output block (its one store), the body's run on whole
  staging buffers, and the per-point obligation of the staged pipeline.
-/
import proofs.«146408_g23742579212952_cont_8to1_365_25_alg».proof.Proof.Gen.KernelIdeal.Launch
import proofs.«146408_g23742579212952_cont_8to1_365_25_alg».proof.Proof.Gen.KernelIdeal.Skeleton
import proofs.«146408_g23742579212952_cont_8to1_365_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 1: the call of `cc1__stage2_body`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x5000 := Rect.unit (s := S400x5000) ![0, 0] S400x5000.size inb_S400x5000_S400x5000_0_0
abbrev r1_1 : Rect S5000x64 := Rect.unit (s := S5000x64) ![0, 0] S5000x64.size inb_S5000x64_S5000x64_0_0
abbrev r1_2 : Rect S400x64 := Rect.unit (s := S400x64) ![0, 0] S400x64.size inb_S400x64_S400x64_0_0
abbrev r1_3 : Rect S400x64 := Rect.unit (s := S400x64) ![0, 0] S400x64.size inb_S400x64_S400x64_0_0

/-- The output window's staging buffer after the body, from the input windows' blocks: its one store. -/
def out1_3 (x0 : Vec F S400x5000 .bf16) (x1 : Vec F S5000x64 .bf16) (x2 : Vec F S400x64 .f32) : Vec F S400x64 .f32 :=
  View.canon [⟨r1_3, k1_pay1 (View.ld x2 r1_2) (View.ld x0 r1_0) (View.ld x1 r1_1)⟩]

/-- The one store covers the buffer. -/
theorem cover1_3 (p0 : Vec F S400x64 .f32) (y : S400x64.Idx) :
    ∃ pc ∈ ([⟨r1_3, p0⟩] : List (View.Piece (Elt F) S400x64 .f32)), y ∈ pc.1.set :=
  View.cover_of_tiled [⟨r1_3, p0⟩] S400x64.size (by rfl) y

set_option maxHeartbeats 1000000 in
/-- The body on whole staging memrefs, the inputs' at given contents and the output's at anything, runs to the continuation
    holding the inputs' as they were and the output's at `out1_3` of the inputs'. -/
theorem sound_kernel1 (c : Dev nD) (E : Set ℕ) (i : grid1.Coords) (arg1 : Memref sig .tc .vmem S400x5000 .bf16) (harg1 : arg1.IsWhole) (arg2 : Memref sig .tc .vmem S5000x64 .bf16) (harg2 : arg2.IsWhole) (arg3 : Memref sig .tc .vmem S400x64 .f32) (harg3 : arg3.IsWhole) (arg4 : Memref sig .tc .vmem S400x64 .f32) (harg4 : arg4.IsWhole)
    (x0 : Vec F S400x5000 .bf16) (x1 : Vec F S5000x64 .bf16) (x2 : Vec F S400x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__stage2_body i arg1 harg1 arg2 harg2 arg3 harg3 arg4 harg4) K := by
  simp only [cc1__stage2_body_eq_skeleton]; unfold cc1__stage2_body_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.FrameRun.lean ====
/-
  The whole program at any float instance: the host joins [geo | seq | poi] and views the bias as a row; the first call
  writes the users' gated embeddings; the host rounds the point-by-user incidence and the embeddings to bf16; the second
  call writes the result. Here: the buffers' contents at each boundary as a fold from the launch memory (a host stretch
  applies its operations; a call leaves its arrays at what its write-backs give and everything else alone), each call as
  a segment over "every unscoped buffer at the boundary's contents", and the run: every fair execution ends, faults
  nowhere, and leaves every unscoped buffer at the last boundary's contents — so each argument as launched and the
  result at what the second call's write-backs give.
-/
import proofs.«146408_g23742579212952_cont_8to1_365_25_alg».proof.Proof.Gen.KernelIdeal.Launch
import proofs.«146408_g23742579212952_cont_8to1_365_25_alg».proof.Proof.Gen.KernelIdeal.Skeleton
import proofs.«146408_g23742579212952_cont_8to1_365_25_alg».proof.Proof.Gen.KernelIdeal.Points
import proofs.«146408_g23742579212952_cont_8to1_365_25_alg».proof.Proof.FrameRegion0
import proofs.«146408_g23742579212952_cont_8to1_365_25_alg».proof.Proof.FrameRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps0_writes : (hostOps0 : List (HloOp τ sig (Elt F))).Forall fun op => op.writes ⊆ (([main_v0, main_v1] : List (Ref sig .tc)).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_writes : (hostOps1 : List (HloOp τ sig (Elt F))).Forall fun op => op.writes ⊆ (([main_v3, main_v4] : List (Ref sig .tc)).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- The first stretch leaves every buffer but the joined table and the bias row alone. -/
theorem after0_of (X : Valuation τ sig (Elt F)) (r : Ref sig .tc) (h : r ∉ ([main_v0, main_v1] : List (Ref sig .tc))) :
    StableHlo.after hostOps0 X (Proc.devRef .tc r) = X (Proc.devRef .tc r) :=
  StableHlo.after_of_writes_sub hostOps0 _ hostOps0_writes h
/-- The second stretch leaves every buffer but the two rounded copies alone. -/
theorem after1_of (X : Valuation τ sig (Elt F)) (r : Ref sig .tc) (h : r ∉ ([main_v3, main_v4] : List (Ref sig .tc))) :
    StableHlo.after hostOps1 X (Proc.devRef .tc r) = X (Proc.devRef .tc r) :=
  StableHlo.after_of_writes_sub hostOps1 _ hostOps1_writes h

/-! ## The buffers' contents at each boundary -/

/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- `main_arg0` ends as launched: no host operation writes it and no call changes it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 2).trans (((dat1 (V3 m ρ) c).arrAt_in 2 rfl _).trans (A_eq1 (V3 m ρ) c 2))
    _ = W2 m ρ c (Proc.devRef .tc main_arg0) := after1_of (W2 m ρ c) main_arg0 (by decide)
    _ = W1 m ρ c (Proc.devRef .tc main_arg0) := W2_of_ne m ρ c main_arg0 (by decide)
    _ = W0 m ρ c (Proc.devRef .tc main_arg0) := after0_of (W0 m ρ c) main_arg0 (by decide)
    _ = m ((c : Thread nD τ).loc main_arg0) := rfl

/-- `main_arg1` ends as launched: no host operation writes it and no call changes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := after1_of (W2 m ρ c) main_arg1 (by decide)
    _ = W1 m ρ c (Proc.devRef .tc main_arg1) := W2_of_ne m ρ c main_arg1 (by decide)
    _ = W0 m ρ c (Proc.devRef .tc main_arg1) := after0_of (W0 m ρ c) main_arg1 (by decide)
    _ = m ((c : Thread nD τ).loc main_arg1) := rfl

/-- `main_arg2` ends as launched: no host operation writes it and no call changes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := after1_of (W2 m ρ c) main_arg2 (by decide)
    _ = W1 m ρ c (Proc.devRef .tc main_arg2) := W2_of_ne m ρ c main_arg2 (by decide)
    _ = W0 m ρ c (Proc.devRef .tc main_arg2) := after0_of (W0 m ρ c) main_arg2 (by decide)
    _ = m ((c : Thread nD τ).loc main_arg2) := rfl

/-- `main_arg3` ends as launched: no host operation writes it and no call changes it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := after1_of (W2 m ρ c) main_arg3 (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := after0_of (W0 m ρ c) main_arg3 (by decide)
    _ = m ((c : Thread nD τ).loc main_arg3) := rfl

/-- `main_arg4` ends as launched: no host operation writes it and no call changes it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := after1_of (W2 m ρ c) main_arg4 (by decide)
    _ = W1 m ρ c (Proc.devRef .tc main_arg4) := (W2_arr m ρ c 0).trans (((dat0 (V1 m ρ) c).arrAt_in 0 rfl _).trans (A_eq0 (V1 m ρ) c 0))
    _ = W0 m ρ c (Proc.devRef .tc main_arg4) := after0_of (W0 m ρ c) main_arg4 (by decide)
    _ = m ((c : Thread nD τ).loc main_arg4) := rfl

/-- `main_arg5` ends as launched: no host operation writes it and no call changes it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := after1_of (W2 m ρ c) main_arg5 (by decide)
    _ = W1 m ρ c (Proc.devRef .tc main_arg5) := W2_of_ne m ρ c main_arg5 (by decide)
    _ = W0 m ρ c (Proc.devRef .tc main_arg5) := after0_of (W0 m ρ c) main_arg5 (by decide)
    _ = m ((c : Thread nD τ).loc main_arg5) := rfl

/-- `main_arg6` ends as launched: no host operation writes it and no call changes it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := after1_of (W2 m ρ c) main_arg6 (by decide)
    _ = W1 m ρ c (Proc.devRef .tc main_arg6) := (W2_arr m ρ c 3).trans (((dat0 (V1 m ρ) c).arrAt_in 3 rfl _).trans (A_eq0 (V1 m ρ) c 3))
    _ = W0 m ρ c (Proc.devRef .tc main_arg6) := after0_of (W0 m ρ c) main_arg6 (by decide)
    _ = m ((c : Thread nD τ).loc main_arg6) := rfl

/-- `main_arg7` ends as launched: no host operation writes it and no call changes it. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := after1_of (W2 m ρ c) main_arg7 (by decide)
    _ = W1 m ρ c (Proc.devRef .tc main_arg7) := W2_of_ne m ρ c main_arg7 (by decide)
    _ = W0 m ρ c (Proc.devRef .tc main_arg7) := after0_of (W0 m ρ c) main_arg7 (by decide)
    _ = m ((c : Thread nD τ).loc main_arg7) := rfl

/-! ## The proof data family and the thread state -/

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the core's generator register and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W4 m ρ c) ∗ ∃ r, prngReg c r)

/-! ## The calls as segments -/

-- a lemma stated over the pinned configuration unifies with the printed one only when unification may unfold plain
-- definitions in a metavariable's type
set_option backward.isDefEq.respectTransparency.types false in
/-- Call 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a lemma stated over the pinned configuration unifies with the printed one only when unification may unfold plain
-- definitions in a metavariable's type
set_option backward.isDefEq.respectTransparency.types false in
/-- Call 1 over the thread state: entered from every unscoped buffer at `W3`, left at `W4`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every fair execution of the program ends, faults nowhere, and leaves
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every fair execution ends, faults nowhere, and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

/-- THE RESULT: the same run also leaves the result array at what the second call's write-backs give. -/
theorem run_result : θ_run defs (onTc (τ := τ) (main (F := F))) ⟨m, fun _ => 0, ρ⟩ (fun r => ∀ c : Dev nD,
      r.2.mem ((c.tc : Thread nD τ).loc main_v5) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.KernelIdeal.Frame

end
-- ==== Proof.Spec.lean ====
/-
  A multi-semantic hypergraph convolution network on the extended reals, entry by entry.

  A user u aggregates three tables of point-of-interest features along its incidence row h = Hup(u, ·):
  g_d = Σ_k h_k · geo(k, d), s_d = Σ_k h_k · seq(k, d), p_d = Σ_k h_k · poi(k, d). The seven messages
  g, s, p, g·s, g·p, s·p, (g·s)·p, laid end to end (448 = 7 · 64 entries), go through one affine map W, b, and are
  gated by the user's own features: hg(u, d) = e + u_d + e · u_d with e = Σ_j msg_j · W(j, d) + b_d. The points of
  interest then read the users back through their incidence rows: Y(p, d) = Σ_u Hpu(p, u) · hg(u, d).
  The layer reads only tables that no layer changes, so two layers on top of the start x give x, Y + x, Y + (Y + x);
  their mean is x + Y whenever x is a real number (Y may be infinite): the one law proved here.
  Tables are functions of their coordinates; no program is mentioned.
-/
import Mathlib.Algebra.BigOperators.Fin
import Idealize.ShloMosaic.PureOps.Ideal

noncomputable section

open scoped BigOperators

namespace Cert.HyperConv

open Idealize.ShloMosaic

/-- One incidence row against one feature column of a table: Σ_k h_k · X(k, d). -/
def agg {P D : ℕ} (h : Fin P → EReal) (X : Fin P → Fin D → EReal) (d : Fin D) : EReal :=
  ∑ k : Fin P, h k * X k d

/-- The seven messages made of the three aggregates at one feature. -/
def pieces (g s p : EReal) : Fin 7 → EReal := ![g, s, p, g * s, g * p, s * p, g * s * p]

/-- Entry j of a user's message row of 448 entries: message j / 64 at feature j % 64. -/
def msgRow (h : Fin 10000 → EReal) (geo seq poi : Fin 10000 → Fin 64 → EReal) (j : Fin 448) : EReal :=
  pieces (agg h geo ⟨j.val % 64, Nat.mod_lt _ (by norm_num)⟩) (agg h seq ⟨j.val % 64, Nat.mod_lt _ (by norm_num)⟩)
    (agg h poi ⟨j.val % 64, Nat.mod_lt _ (by norm_num)⟩) ⟨j.val / 64, by have := j.isLt; omega⟩

/-- The fused message of a user at feature d: Σ_j msg_j · W(j, d) + b_d. -/
def fusedRow (h : Fin 10000 → EReal) (geo seq poi : Fin 10000 → Fin 64 → EReal) (W : Fin 448 → Fin 64 → EReal)
    (b : Fin 64 → EReal) (d : Fin 64) : EReal :=
  (∑ j : Fin 448, msgRow h geo seq poi j * W j d) + b d

/-- The gated user embedding at feature d: e + u_d + e · u_d. -/
def gatedRow (h : Fin 10000 → EReal) (geo seq poi : Fin 10000 → Fin 64 → EReal) (W : Fin 448 → Fin 64 → EReal)
    (b : Fin 64 → EReal) (u : Fin 64 → EReal) (d : Fin 64) : EReal :=
  fusedRow h geo seq poi W b d + u d + fusedRow h geo seq poi W b d * u d

/-- Every user's gated embedding. -/
def hg (Hup : Fin 5000 → Fin 10000 → EReal) (geo seq poi : Fin 10000 → Fin 64 → EReal) (W : Fin 448 → Fin 64 → EReal)
    (b : Fin 64 → EReal) (users : Fin 5000 → Fin 64 → EReal) : Fin 5000 → Fin 64 → EReal :=
  fun u d => gatedRow (Hup u) geo seq poi W b (users u) d

/-- The users read back by a point of interest: Σ_u r_u · G(u, d), r its incidence row. -/
def back (r : Fin 5000 → EReal) (G : Fin 5000 → Fin 64 → EReal) (d : Fin 64) : EReal :=
  ∑ u : Fin 5000, r u * G u d

/-- The layer's output on the points of interest. -/
def layer (Hup : Fin 5000 → Fin 10000 → EReal) (Hpu : Fin 10000 → Fin 5000 → EReal) (geo seq poi : Fin 10000 → Fin 64 → EReal)
    (W : Fin 448 → Fin 64 → EReal) (b : Fin 64 → EReal) (users : Fin 5000 → Fin 64 → EReal) : Fin 10000 → Fin 64 → EReal :=
  fun p d => back (Hpu p) (hg Hup geo seq poi W b users) d

/-- The network's result: the start plus one layer. -/
def net (Hup : Fin 5000 → Fin 10000 → EReal) (Hpu : Fin 10000 → Fin 5000 → EReal) (geo seq poi : Fin 10000 → Fin 64 → EReal)
    (W : Fin 448 → Fin 64 → EReal) (b : Fin 64 → EReal) (users : Fin 5000 → Fin 64 → EReal) : Fin 10000 → Fin 64 → EReal :=
  fun p d => poi p d + layer Hup Hpu geo seq poi W b users p d

/-- The mean of the three iterates x, y + x, y + (y + x), summed from 0 and divided by 3. -/
def meanOfThree (x y : EReal) : EReal :=
  Ideal.div (0 + ∑ k : Fin 3, (![x, y + x, y + (y + x)] : Fin 3 → EReal) k) ((3 : ℝ) : EReal)

/-- With a real start, the mean of the three iterates is the start plus the layer, whatever extended real the layer is. -/
theorem meanOfThree_eq (x : ℝ) (y : EReal) : meanOfThree (x : EReal) y = (x : EReal) + y := by
  unfold meanOfThree
  rw [Ideal.div_coe (by norm_num : (3 : ℝ) ≠ 0), Fin.sum_univ_three]
  simp only [Matrix.cons_val_zero, Matrix.cons_val_one, Matrix.cons_val_two, Matrix.head_cons, Matrix.tail_cons, zero_add]
  induction y using EReal.rec with
  | bot => simp [EReal.bot_mul_coe_of_pos]
  | coe y =>
    rw [← EReal.coe_add, ← EReal.coe_add, ← EReal.coe_add, ← EReal.coe_add, ← EReal.coe_mul, ← EReal.coe_add]
    congr 1; ring
  | top => simp [EReal.top_mul_coe_of_pos]

end Cert.HyperConv

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibDenseLayer.lean ====
/-
  A dense layer on a block of rows, on the extended reals.

  On one row a dense layer is  (h·W + b)_q = Σ_k h_k · W(k, q) + b_q  (`affine`), and the rectifier is the entrywise
  maximum with 0 (`relu`). A kernel body spells the layer on a block of R rows as a matrix product [R, K] × [K, N]
  accumulated into the f32 zero splat plus the bias row [1, N] laid along the R rows (`layerVec`), and the rectifier
  as the maximum with the splat of the f32 zero word (`reluVec`). At the ideal values entry (p, q) of the former is
  the affine image of row p at q (`layerVec_apply`) and an entry of the latter is the maximum with 0
  (`reluVec_apply`), for any R, K, N. `rowOf` reads a [1, N] bias row as the vector of its entries.
  Imports LibPlainMatmul.lean (the product read at an entry) and the library; nothing here mentions a program.
-/
import proofs.«146408_g23742579212952_cont_8to1_365_25_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.DenseLayer

open Idealize.ShloMosaic Idealize.ShloMosaic.ValueIdx

/-- An affine layer on one row: `(h·W + b)_q = Σ_k h_k · W(k, q) + b_q`. -/
def affine {K N : ℕ} (h : Fin K → EReal) (W : (⟨2, ![K, N]⟩ : Shape).Idx → EReal) (b : Fin N → EReal) : Fin N → EReal :=
  fun q => (∑ k : Fin K, h k * W (ix2 k q)) + b q

/-- The rectifier, entry by entry. -/
def relu {N : ℕ} (v : Fin N → EReal) : Fin N → EReal := fun q => max (v q) 0

/-- A bias row [1, N] as the vector of its N entries. -/
def rowOf {N : ℕ} (b : (⟨2, ![1, N]⟩ : Shape).Idx → EReal) : Fin N → EReal := fun q => b (ix2 0 q)

/-- One layer on a block of R rows as a program spells it: the product into the zero splat, plus the bias row
    [1, N] laid along the R rows. -/
def layerVec {R K N : ℕ}
    (wf : DotDims.WF (⟨2, ![R, K]⟩ : Shape) (⟨2, ![K, N]⟩ : Shape) (⟨2, ![R, N]⟩ : Shape) [1] [0] [0] [1] [] [])
    (hb : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) : FVec Ideal (⟨2, ![R, N]⟩ : Shape) .f32 :=
  addf (matmul (PlainMatmul.plain wf) none h w (constant (⟨2, ![R, N]⟩ : Shape) .f32 0x00000000#32))
    (broadcastTo (⟨2, ![R, N]⟩ : Shape) b hb)

/-- The rectifier on a vector: the maximum with the splat of the f32 zero word. -/
def reluVec {s : Shape} (v : FVec Ideal s .f32) : FVec Ideal s .f32 :=
  maximumf v (broadcast s (Scalar.ofBits (F := Ideal) .f32 0x00000000#32))

/-- Entry (p, q) of a layer: the affine image of row p, at q. -/
theorem layerVec_apply {R K N : ℕ}
    (wf : DotDims.WF (⟨2, ![R, K]⟩ : Shape) (⟨2, ![K, N]⟩ : Shape) (⟨2, ![R, N]⟩ : Shape) [1] [0] [0] [1] [] [])
    (hb : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) (p : Fin R) (q : Fin N) :
    layerVec wf hb h w b (ix2 p q) = affine (fun k => h (ix2 p k)) w (rowOf b) q :=
  congrArg₂ (· + ·) (PlainMatmul.matmul_zero_apply wf none h w p q)
    (broadcastTo_apply b hb (ix2 p q) (ix2 0 q) fun a => by
      match a with
      | ⟨0, _⟩ => exact (if_pos rfl).symm
      | ⟨1, _⟩ =>
        show q.val = if N = 1 then 0 else q.val
        split
        · have := q.isLt; omega
        · rfl)

/-- An entry of the rectifier: the maximum with 0. -/
theorem reluVec_apply {s : Shape} (v : FVec Ideal s .f32) (i : s.Idx) : reluVec v i = max (v i) 0 := by
  show max (v i) (FloatOps.ofBits (F := Ideal) .f32 0x00000000#32) = _
  rw [Ideal.ofBits_def, Ideal.ofBits_zero_f32]

end Cert.DenseLayer

end
-- ==== Proof.LibJoinAxis.lean ====
/-
  A join of equally sized arrays along one axis of a matrix, read at an entry.

  When N matrices of one shape are laid end to end along the columns (each K columns wide), column l of the
  joined matrix is column l % K of piece l / K, on the same row; laid end to end along the rows (each K rows
  tall), row l of the joined matrix is row l % K of piece l / K, on the same column. The pieces are given as a
  family indexed by their position; a literal list of N pieces of one shape is the list of that family.
-/
import Idealize.ShloMosaic.Lib.ValueIdx
import Idealize.ShloMosaic.Lib.Pipeline.Value

namespace Cert.LibJoinAxis

open Idealize.ShloMosaic Idealize.ShloMosaic.ValueIdx

/-- `N` matrices of `A` rows and `K` columns joined along the columns into `W` columns, read at row `p` and
    column `l`: piece `n = l / K` at row `p` and column `c = l % K`. -/
theorem joinCols_apply {α : Type} {A K N W : Nat} (f : Fin N → (⟨2, ![A, K]⟩ : Shape).Idx → α)
    (h : Shape.Concatenates
      ((List.ofFn fun n : Fin N => (⟨⟨2, ![A, K]⟩, f n⟩ : (s : Shape) × (s.Idx → α))).map (·.1)) ⟨2, ![A, W]⟩ 1)
    (p : Fin A) (l : Fin W) (n : Fin N) (hn : l.val / K = n.val) (c : Fin K) (hc : c.val = l.val % K) :
    concatenate ⟨2, ![A, W]⟩ 1 (List.ofFn fun n : Fin N => (⟨⟨2, ![A, K]⟩, f n⟩ : (s : Shape) × (s.Idx → α))) h (ix2 p l)
      = f n (ix2 p c) :=
  concatenate_ofFn_apply (t := ⟨2, ![A, W]⟩) (s₁ := ⟨2, ![A, K]⟩) (1 : Fin 2) f h rfl K rfl (ix2 p l) n hn (ix2 p c) hc
    (fun b hb => by
      match b with
      | ⟨0, _⟩ => rfl
      | ⟨1, _⟩ => exact absurd rfl hb)

/-- `N` matrices of `K` rows and `B` columns joined along the rows into `H` rows, read at row `l` and column
    `q`: piece `n = l / K` at row `r = l % K` and column `q`. -/
theorem joinRows_apply {α : Type} {B K N H : Nat} (f : Fin N → (⟨2, ![K, B]⟩ : Shape).Idx → α)
    (h : Shape.Concatenates
      ((List.ofFn fun n : Fin N => (⟨⟨2, ![K, B]⟩, f n⟩ : (s : Shape) × (s.Idx → α))).map (·.1)) ⟨2, ![H, B]⟩ 0)
    (l : Fin H) (q : Fin B) (n : Fin N) (hn : l.val / K = n.val) (r : Fin K) (hr : r.val = l.val % K) :
    concatenate ⟨2, ![H, B]⟩ 0 (List.ofFn fun n : Fin N => (⟨⟨2, ![K, B]⟩, f n⟩ : (s : Shape) × (s.Idx → α))) h (ix2 l q)
      = f n (ix2 r q) :=
  concatenate_ofFn_apply (t := ⟨2, ![H, B]⟩) (s₁ := ⟨2, ![K, B]⟩) (0 : Fin 2) f h rfl K rfl (ix2 l q) n hn (ix2 r q) hr
    (fun b hb => by
      match b with
      | ⟨0, _⟩ => exact absurd rfl hb
      | ⟨1, _⟩ => rfl)

end Cert.LibJoinAxis
-- ==== Proof.PayStage1.lean ====
/-
  The first kernel body read at an entry.

  On a block of 200 users the body multiplies the block's incidence rows [200, 10000] with the joined table
  [10000, 192] (geo, seq, poi side by side), cuts the product into its three column blocks g, s, p, forms the products
  g·s, g·p, s·p, (g·s)·p, lays the seven [200, 64] blocks side by side into a [200, 448] message block, sends it through the
  affine map W, b, and gates the result e with the users' own block u:  (e + u) + e · u.
  Each stage is named here as a function of its operands and read at an entry; entry (r, d) of the whole is the gated row
  of user r at feature d.
-/
import proofs.«146408_g23742579212952_cont_8to1_365_25_alg».proof.Proof.Gen.KernelIdeal.Skeleton
import proofs.«146408_g23742579212952_cont_8to1_365_25_alg».proof.Proof.Spec
import proofs.«146408_g23742579212952_cont_8to1_365_25_alg».proof.Proof.LibPlainMatmul
import proofs.«146408_g23742579212952_cont_8to1_365_25_alg».proof.Proof.LibDenseLayer
import proofs.«146408_g23742579212952_cont_8to1_365_25_alg».proof.Proof.LibJoinAxis
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.KernelIdeal.Pay

open Cert.KernelIdeal Idealize.ShloMosaic Idealize.ShloMosaic.ValueIdx

/-! ## The stages as functions of their operands -/

/-- The incidence block times the joined table: a [200, 192] block of aggregates. -/
def aggBlock (x0 : FVec Ideal S200x10000 .f32) (x1 : FVec Ideal S10000x192 .f32) : FVec Ideal S200x192 .f32 :=
  matmul dot_S200x10000_S10000x192_S200x192_1_0_0_1_n_n none x0 x1 (constant (F := Ideal) S200x192 .f32 0x00000000#32)

/-- The seven messages made of the three column blocks of the aggregates, side by side. -/
def msgBlock (a : FVec Ideal S200x192 .f32) : FVec Ideal S200x448 .f32 :=
  have g : FVec Ideal S200x64 .f32 := extractStridedSlice S200x64 ![0, 0] a Gen.slices_S200x192_o0_0_S200x64
  have s : FVec Ideal S200x64 .f32 := extractStridedSlice S200x64 ![0, 64] a Gen.slices_S200x192_o0_64_S200x64
  have p : FVec Ideal S200x64 .f32 := extractStridedSlice S200x64 ![0, 128] a Gen.slices_S200x192_o0_128_S200x64
  concatenate S200x448 1 [⟨S200x64, g⟩, ⟨S200x64, s⟩, ⟨S200x64, p⟩, ⟨S200x64, mulf g s⟩, ⟨S200x64, mulf g p⟩,
    ⟨S200x64, mulf s p⟩, ⟨S200x64, mulf (mulf g s) p⟩]
    Gen.concatenates_S200x64_S200x64_S200x64_S200x64_S200x64_S200x64_S200x64_S200x448_d1

/-- The affine map on a message block: the product with the weights plus the bias row laid along the rows. -/
def fusedBlock (m : FVec Ideal S200x448 .f32) (w : FVec Ideal S448x64 .f32) (b : FVec Ideal S1x64 .f32) :
    FVec Ideal S200x64 .f32 :=
  addf (matmul dot_S200x448_S448x64_S200x64_1_0_0_1_n_n none m w (constant (F := Ideal) S200x64 .f32 0x00000000#32))
    (broadcastTo S200x64 b Gen.broadcasts_S1x64_S200x64)

/-- The gate: (e + u) + e · u, entry by entry. -/
def gateBlock (e u : FVec Ideal S200x64 .f32) : FVec Ideal S200x64 .f32 := addf (addf e u) (mulf e u)

/-- The body's result is the four stages in turn (the two casts to the same shape change nothing). -/
theorem k0_pay1_eq (x0 : Vec Ideal S200x10000 .f32) (x1 : Vec Ideal S10000x192 .f32) (x3 : Vec Ideal S448x64 .f32)
    (x4 : Vec Ideal S1x64 .f32) (x2 : Vec Ideal S200x64 .f32) :
    Cert.KernelIdeal.Gen.k0_pay1 (F := Ideal) x0 x1 x3 x4 x2 = gateBlock (fusedBlock (msgBlock (aggBlock x0 x1)) x3 x4) x2 := by
  unfold Cert.KernelIdeal.Gen.k0_pay1
  rw [shapeCast_self, shapeCast_self]
  rfl

/-! ## Each stage at an entry -/

/-- Entry (r, c) of the aggregates: Σ_k h_r(k) · T(k, c). -/
theorem aggBlock_apply (x0 : FVec Ideal S200x10000 .f32) (x1 : FVec Ideal S10000x192 .f32) (r : Fin 200) (c : Fin 192) :
    aggBlock x0 x1 (ix2 r c) = ∑ k : Fin 10000, x0 (ix2 r k) * x1 (ix2 k c) :=
  Cert.PlainMatmul.matmul_zero_apply Gen.dot_S200x10000_S10000x192_S200x192_1_0_0_1_n_n_wf none x0 x1 r c

/-- A block of 64 columns cut from a [200, 192] matrix at column offset `off`, at (r, e): the matrix at (r, off + e). -/
theorem sliceCols_apply {α : Type} (off : ℕ) (a : S200x192.Idx → α) (h : S200x192.Slices ![0, off] S200x64)
    (r : Fin 200) (e : Fin 64) (c : Fin 192) (hc : c.val = off + e.val) :
    extractStridedSlice S200x64 ![0, off] a h (ix2 r e) = a (ix2 r c) :=
  extractStridedSlice_apply ![0, off] a h (ix2 r e) (ix2 r c) fun b => by
    match b with
    | ⟨0, _⟩ => exact (Nat.zero_add _).symm
    | ⟨1, _⟩ => exact hc

/-- Seven matrices of one shape joined along the columns, at row p and column l: piece l / K at column l % K. -/
theorem join7_apply {α : Type} {A K W : Nat} (f0 f1 f2 f3 f4 f5 f6 : (⟨2, ![A, K]⟩ : Shape).Idx → α)
    (h : Shape.Concatenates
      (([⟨⟨2, ![A, K]⟩, f0⟩, ⟨⟨2, ![A, K]⟩, f1⟩, ⟨⟨2, ![A, K]⟩, f2⟩, ⟨⟨2, ![A, K]⟩, f3⟩, ⟨⟨2, ![A, K]⟩, f4⟩,
        ⟨⟨2, ![A, K]⟩, f5⟩, ⟨⟨2, ![A, K]⟩, f6⟩] : List ((s : Shape) × (s.Idx → α))).map (·.1)) ⟨2, ![A, W]⟩ 1)
    (p : Fin A) (l : Fin W) (n : Fin 7) (hn : l.val / K = n.val) (c : Fin K) (hc : c.val = l.val % K) :
    concatenate ⟨2, ![A, W]⟩ 1 [⟨⟨2, ![A, K]⟩, f0⟩, ⟨⟨2, ![A, K]⟩, f1⟩, ⟨⟨2, ![A, K]⟩, f2⟩, ⟨⟨2, ![A, K]⟩, f3⟩,
        ⟨⟨2, ![A, K]⟩, f4⟩, ⟨⟨2, ![A, K]⟩, f5⟩, ⟨⟨2, ![A, K]⟩, f6⟩] h (ix2 p l)
      = (![f0, f1, f2, f3, f4, f5, f6] : Fin 7 → (⟨2, ![A, K]⟩ : Shape).Idx → α) n (ix2 p c) :=
  Cert.LibJoinAxis.joinCols_apply (N := 7) (K := K)
    (fun n => (![f0, f1, f2, f3, f4, f5, f6] : Fin 7 → (⟨2, ![A, K]⟩ : Shape).Idx → α) n) h p l n hn c hc

/-- The seven blocks g, s, p, g·s, g·p, s·p, (g·s)·p at one entry are the seven messages of the three entries. -/
theorem pieces_at (g s p : FVec Ideal S200x64 .f32) (i : S200x64.Idx) (n : Fin 7) :
    (![g, s, p, mulf g s, mulf g p, mulf s p, mulf (mulf g s) p] : Fin 7 → S200x64.Idx → EReal) n i
      = Cert.HyperConv.pieces (g i) (s i) (p i) n := by
  unfold Cert.HyperConv.pieces
  fin_cases n <;> rfl

/-- Entry (r, j) of the message block: message j / 64 of the three aggregates of row r at feature j % 64. -/
theorem msgBlock_apply (a : FVec Ideal S200x192 .f32) (r : Fin 200) (j : Fin 448) :
    msgBlock a (ix2 r j)
      = Cert.HyperConv.pieces (a (ix2 r ⟨j.val % 64, by omega⟩)) (a (ix2 r ⟨64 + j.val % 64, by omega⟩))
          (a (ix2 r ⟨128 + j.val % 64, by omega⟩)) ⟨j.val / 64, by have := j.isLt; omega⟩ := by
  unfold msgBlock
  refine (join7_apply (A := 200) (K := 64) (W := 448) _ _ _ _ _ _ _ _ r j ⟨j.val / 64, by have := j.isLt; omega⟩ rfl
    ⟨j.val % 64, Nat.mod_lt _ (by norm_num)⟩ rfl).trans ?_
  refine (pieces_at _ _ _ _ _).trans ?_
  rw [sliceCols_apply 0 a _ r ⟨j.val % 64, Nat.mod_lt _ (by norm_num)⟩ ⟨j.val % 64, by omega⟩ (Nat.zero_add _).symm,
    sliceCols_apply 64 a _ r ⟨j.val % 64, Nat.mod_lt _ (by norm_num)⟩ ⟨64 + j.val % 64, by omega⟩ rfl,
    sliceCols_apply 128 a _ r ⟨j.val % 64, Nat.mod_lt _ (by norm_num)⟩ ⟨128 + j.val % 64, by omega⟩ rfl]

/-- Entry (r, j) of the message block of the aggregates: entry j of user r's message row. -/
theorem msgRow_apply (x0 : FVec Ideal S200x10000 .f32) (x1 : FVec Ideal S10000x192 .f32) (r : Fin 200) (j : Fin 448) :
    msgBlock (aggBlock x0 x1) (ix2 r j)
      = Cert.HyperConv.msgRow (fun k => x0 (ix2 r k))
          (fun k e => x1 (ix2 k ⟨e.val, by have := e.isLt; omega⟩)) (fun k e => x1 (ix2 k ⟨64 + e.val, by have := e.isLt; omega⟩))
          (fun k e => x1 (ix2 k ⟨128 + e.val, by have := e.isLt; omega⟩)) j := by
  rw [msgBlock_apply, aggBlock_apply, aggBlock_apply, aggBlock_apply]
  rfl

/-- Entry (r, d) of the affine map: Σ_j m(r, j) · W(j, d) + b(0, d). -/
theorem fusedBlock_apply (m : FVec Ideal S200x448 .f32) (w : FVec Ideal S448x64 .f32) (b : FVec Ideal S1x64 .f32)
    (r : Fin 200) (d : Fin 64) :
    fusedBlock m w b (ix2 r d) = (∑ j : Fin 448, m (ix2 r j) * w (ix2 j d)) + b (ix2 0 d) :=
  Cert.DenseLayer.layerVec_apply Gen.dot_S200x448_S448x64_S200x64_1_0_0_1_n_n_wf Gen.broadcasts_S1x64_S200x64 m w b r d

/-! ## The body at an entry -/

/-- Entry (r, d) of the first body's result: the gated embedding of the block's user r at feature d. -/
theorem stage1_apply (x0 : Vec Ideal S200x10000 .f32) (x1 : Vec Ideal S10000x192 .f32) (x3 : Vec Ideal S448x64 .f32)
    (x4 : Vec Ideal S1x64 .f32) (x2 : Vec Ideal S200x64 .f32) (r : Fin 200) (d : Fin 64) :
    Cert.KernelIdeal.Gen.k0_pay1 (F := Ideal) x0 x1 x3 x4 x2 (ix2 r d)
      = Cert.HyperConv.gatedRow (fun k => x0 (ix2 r k))
          (fun k e => x1 (ix2 k ⟨e.val, by have := e.isLt; omega⟩)) (fun k e => x1 (ix2 k ⟨64 + e.val, by have := e.isLt; omega⟩))
          (fun k e => x1 (ix2 k ⟨128 + e.val, by have := e.isLt; omega⟩))
          (fun j e => x3 (ix2 j e)) (fun e => x4 (ix2 0 e)) (fun e => x2 (ix2 r e)) d := by
  rw [k0_pay1_eq]
  show fusedBlock (msgBlock (aggBlock x0 x1)) x3 x4 (ix2 r d) + x2 (ix2 r d)
      + fusedBlock (msgBlock (aggBlock x0 x1)) x3 x4 (ix2 r d) * x2 (ix2 r d) = _
  rw [fusedBlock_apply]
  simp only [msgRow_apply]
  rfl

end Cert.KernelIdeal.Pay

end
-- ==== Proof.ValueRegion0.lean ====
/-
  What the first call leaves in the users' embeddings array, on the extended reals, for any contents it is entered with.

  The call walks the 25 blocks of 200 users. At block t it reads rows 200t … 200t + 199 of the user-by-point incidence
  and of the users' features, and the whole joined table, weights and bias row, and writes the block's gated
  embeddings into the same rows of the result. Every user lies in exactly one block (user u in block u / 200), so the
  array ends holding, at (u, d), the gated embedding of user u at feature d: the incidence row of u against the three
  column groups of the joined table, the seven messages fused by the weights and bias, gated by the user's features.
-/
import proofs.«146408_g23742579212952_cont_8to1_365_25_alg».proof.Proof.FrameRegion0
import proofs.«146408_g23742579212952_cont_8to1_365_25_alg».proof.Proof.PayStage1
import Idealize.ShloMosaic.Lib.Pipeline.Value
import Idealize.ShloMosaic.Lib.ValueIdx

set_option maxRecDepth 16384

noncomputable section

namespace Cert.KernelIdeal.NetValue0

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The gated embedding of one user at one feature, from five arrays: the incidence, the joined table, the weights,
    the bias row and the users' features. -/
def gatedAt (a4 : S5000x10000.Idx → EReal) (v0 : S10000x192.Idx → EReal) (a6 : S448x64.Idx → EReal) (v1 : S1x64.Idx → EReal)
    (a3 : S5000x64.Idx → EReal) (u : Fin 5000) (d : Fin 64) : EReal :=
  HyperConv.gatedRow (fun k => a4 (ix2 u k))
    (fun k e => v0 (ix2 k ⟨e.val, by have := e.isLt; omega⟩))
    (fun k e => v0 (ix2 k ⟨64 + e.val, by have := e.isLt; omega⟩))
    (fun k e => v0 (ix2 k ⟨128 + e.val, by have := e.isLt; omega⟩))
    (fun j e => a6 (ix2 j e)) (fun e => v1 (ix2 0 e)) (fun e => a3 (ix2 u e)) d

/-- The users' embeddings array after the first call. -/
def G0 (c : Dev nD) : S5000x64.Idx → EReal := fun i =>
  gatedAt (V c main_arg4) (V c main_v0) (V c main_arg6) (V c main_v1) (V c main_arg3) ⟨(i 0).val, (i 0).isLt⟩ ⟨(i 1).val, (i 1).isLt⟩

theorem G0_apply (c : Dev nD) (u : Fin 5000) (d : Fin 64) :
    G0 V c (ix2 u d) = gatedAt (V c main_arg4) (V c main_v0) (V c main_arg6) (V c main_v1) (V c main_arg3) u d := rfl

/-- Equal tables give equal gated embeddings. -/
theorem gatedRow_congr {h h' : Fin 10000 → EReal} {geo geo' seq seq' poi poi' : Fin 10000 → Fin 64 → EReal}
    {W W' : Fin 448 → Fin 64 → EReal} {b b' u u' : Fin 64 → EReal}
    (e1 : h = h') (e2 : geo = geo') (e3 : seq = seq') (e4 : poi = poi') (e5 : W = W') (e6 : b = b') (e7 : u = u') (d : Fin 64) :
    HyperConv.gatedRow h geo seq poi W b u d = HyperConv.gatedRow h' geo' seq' poi' W' b' u' d := by
  subst e1 e2 e3 e4 e5 e6 e7; rfl

/-- A block's gated entry is the arrays' when the block's rows are the arrays' rows. -/
theorem gatedAt_of (x0 : Vec Ideal S200x10000 .f32) (x1 : Vec Ideal S10000x192 .f32) (x3 : Vec Ideal S448x64 .f32) (x4 : Vec Ideal S1x64 .f32)
    (x2 : Vec Ideal S200x64 .f32) (a4 : S5000x10000.Idx → EReal) (v0 : S10000x192.Idx → EReal) (a6 : S448x64.Idx → EReal)
    (v1 : S1x64.Idx → EReal) (a3 : S5000x64.Idx → EReal) (r : Fin 200) (p : Fin 5000) (d : Fin 64)
    (h0 : ∀ k, x0 (ix2 r k) = a4 (ix2 p k)) (h1 : ∀ k l, x1 (ix2 k l) = v0 (ix2 k l)) (h3 : ∀ j e, x3 (ix2 j e) = a6 (ix2 j e))
    (h4 : ∀ e, x4 (ix2 0 e) = v1 (ix2 0 e)) (h2 : ∀ e, x2 (ix2 r e) = a3 (ix2 p e)) :
    HyperConv.gatedRow (fun k => x0 (ix2 r k))
        (fun k e => x1 (ix2 k ⟨e.val, by have := e.isLt; omega⟩)) (fun k e => x1 (ix2 k ⟨64 + e.val, by have := e.isLt; omega⟩)) (fun k e => x1 (ix2 k ⟨128 + e.val, by have := e.isLt; omega⟩))
        (fun j e => x3 (ix2 j e)) (fun e => x4 (ix2 0 e)) (fun e => x2 (ix2 r e)) d
      = gatedAt a4 v0 a6 v1 a3 p d := by
  unfold gatedAt
  exact gatedRow_congr (funext h0) (funext fun k => funext fun e => h1 k _) (funext fun k => funext fun e => h1 k _)
    (funext fun k => funext fun e => h1 k _) (funext fun j => funext fun e => h3 j e) (funext h4) (funext h2) d

/-- The blocks' positions over the grid: block t of the row-blocked windows starts at row block t; the joined table's,
    the weights' and the bias row's windows are the whole arrays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt25 (t : Fin cfg0.N) : t.val < 25 := by have h := t.isLt; have hN : cfg0.N = 25 := N_0; omega

/-- Entry (r, k) of the incidence's block t is entry (200 t + r, k) of the incidence. -/
theorem blk0_0 (c : Dev nD) (t : Fin cfg0.N) (r : Fin 200) (k : Fin 10000) :
    (iblk0 V c 0 t : Vec Ideal S200x10000 .f32) (ix2 r k)
      = (V c main_arg4 : S5000x10000.Idx → EReal) (ix2 ⟨t.val * 200 + r.val, by have := lt25 t; have := r.isLt; omega⟩ k) := by
  obtain ⟨e00, e01, -⟩ := idx0 t
  unfold iblk0
  rw [View.read_apply]
  show (V c main_arg4 : S5000x10000.Idx → EReal) _ = (V c main_arg4 : S5000x10000.Idx → EReal) _
  refine congrArg (V c main_arg4 : S5000x10000.Idx → EReal) ?_
  funext a
  apply Fin.ext
  match a with
  | ⟨0, _⟩ => show win0_0.index t (0 : Fin 2) * 200 + 1 * r.val = t.val * 200 + r.val; rw [e00]; omega
  | ⟨1, _⟩ => show win0_0.index t (1 : Fin 2) * 10000 + 1 * k.val = k.val; rw [e01]; omega

/-- The joined table's block at any point is the whole table. -/
theorem blk0_1 (c : Dev nD) (t : Fin cfg0.N) (k : Fin 10000) (l : Fin 192) :
    (iblk0 V c 1 t : Vec Ideal S10000x192 .f32) (ix2 k l) = (V c main_v0 : S10000x192.Idx → EReal) (ix2 k l) := by
  obtain ⟨-, -, e10, e11, -⟩ := idx0 t
  unfold iblk0
  rw [View.read_apply]
  show (V c main_v0 : S10000x192.Idx → EReal) _ = (V c main_v0 : S10000x192.Idx → EReal) _
  refine congrArg (V c main_v0 : S10000x192.Idx → EReal) ?_
  funext a
  apply Fin.ext
  match a with
  | ⟨0, _⟩ => show win0_1.index t (0 : Fin 2) * 10000 + 1 * k.val = k.val; rw [e10]; omega
  | ⟨1, _⟩ => show win0_1.index t (1 : Fin 2) * 192 + 1 * l.val = l.val; rw [e11]; omega

/-- Entry (r, e) of the users' features' block t is entry (200 t + r, e) of the features. -/
theorem blk0_2 (c : Dev nD) (t : Fin cfg0.N) (r : Fin 200) (e : Fin 64) :
    (iblk0 V c 2 t : Vec Ideal S200x64 .f32) (ix2 r e)
      = (V c main_arg3 : S5000x64.Idx → EReal) (ix2 ⟨t.val * 200 + r.val, by have := lt25 t; have := r.isLt; omega⟩ e) := by
  obtain ⟨-, -, -, -, e20, e21, -⟩ := idx0 t
  unfold iblk0
  rw [View.read_apply]
  show (V c main_arg3 : S5000x64.Idx → EReal) _ = (V c main_arg3 : S5000x64.Idx → EReal) _
  refine congrArg (V c main_arg3 : S5000x64.Idx → EReal) ?_
  funext a
  apply Fin.ext
  match a with
  | ⟨0, _⟩ => show win0_2.index t (0 : Fin 2) * 200 + 1 * r.val = t.val * 200 + r.val; rw [e20]; omega
  | ⟨1, _⟩ => show win0_2.index t (1 : Fin 2) * 64 + 1 * e.val = e.val; rw [e21]; omega

/-- The weights' block at any point is the whole array. -/
theorem blk0_3 (c : Dev nD) (t : Fin cfg0.N) (j : Fin 448) (e : Fin 64) :
    (iblk0 V c 3 t : Vec Ideal S448x64 .f32) (ix2 j e) = (V c main_arg6 : S448x64.Idx → EReal) (ix2 j e) := by
  obtain ⟨-, -, -, -, -, -, e30, e31, -⟩ := idx0 t
  unfold iblk0
  rw [View.read_apply]
  show (V c main_arg6 : S448x64.Idx → EReal) _ = (V c main_arg6 : S448x64.Idx → EReal) _
  refine congrArg (V c main_arg6 : S448x64.Idx → EReal) ?_
  funext a
  apply Fin.ext
  match a with
  | ⟨0, _⟩ => show win0_3.index t (0 : Fin 2) * 448 + 1 * j.val = j.val; rw [e30]; omega
  | ⟨1, _⟩ => show win0_3.index t (1 : Fin 2) * 64 + 1 * e.val = e.val; rw [e31]; omega

/-- The bias row's block at any point is the whole row. -/
theorem blk0_4 (c : Dev nD) (t : Fin cfg0.N) (z : Fin 1) (e : Fin 64) :
    (iblk0 V c 4 t : Vec Ideal S1x64 .f32) (ix2 z e) = (V c main_v1 : S1x64.Idx → EReal) (ix2 z e) := by
  obtain ⟨-, -, -, -, -, -, -, -, e40, e41, -⟩ := idx0 t
  unfold iblk0
  rw [View.read_apply]
  show (V c main_v1 : S1x64.Idx → EReal) _ = (V c main_v1 : S1x64.Idx → EReal) _
  refine congrArg (V c main_v1 : S1x64.Idx → EReal) ?_
  funext a
  apply Fin.ext
  match a with
  | ⟨0, _⟩ => show win0_4.index t (0 : Fin 2) * 1 + 1 * z.val = z.val; rw [e40]; omega
  | ⟨1, _⟩ => show win0_4.index t (1 : Fin 2) * 64 + 1 * e.val = e.val; rw [e41]; omega

/-- Entry (r, d) of the result's block t sits at (200 t + r, d) of the result array. -/
theorem emb0_5 (t : Fin cfg0.N) (r : Fin 200) (d : Fin 64) :
    (((cfg0.win 5).blk t).view.emb (ix2 r d) : S5000x64.Idx)
      = ix2 ⟨t.val * 200 + r.val, by have := lt25 t; have := r.isLt; omega⟩ d := by
  obtain ⟨-, -, -, -, -, -, -, -, -, -, e50, e51⟩ := idx0 t
  funext a
  apply Fin.ext
  match a with
  | ⟨0, _⟩ => show win0_5.index t (0 : Fin 2) * 200 + 1 * r.val = t.val * 200 + r.val; rw [e50]; omega
  | ⟨1, _⟩ => show win0_5.index t (1 : Fin 2) * 64 + 1 * d.val = d.val; rw [e51]; omega

/-- What point t writes back is block t of `G0`. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S200x10000) hz, View.ld_unit_zero (S := S10000x192) hz, View.ld_unit_zero (S := S200x64) hz,
    View.ld_unit_zero (S := S448x64) hz, View.ld_unit_zero (S := S1x64) hz]
  funext j
  obtain ⟨r, d, rfl⟩ : ∃ (r : Fin 200) (d : Fin 64), j = ix2 r d := ⟨j 0, j 1, eq_ix2 j⟩
  show k0_pay1 (F := Ideal) (iblk0 V c 0 t) (iblk0 V c 1 t) (iblk0 V c 3 t) (iblk0 V c 4 t) (iblk0 V c 2 t) (ix2 r d)
    = G0 V c (((cfg0.win 5).blk t).view.emb (ix2 r d))
  refine (Pay.stage1_apply (iblk0 V c 0 t) (iblk0 V c 1 t) (iblk0 V c 3 t) (iblk0 V c 4 t) (iblk0 V c 2 t) r d).trans ?_
  rw [emb0_5 t r d, G0_apply]
  exact gatedAt_of (iblk0 V c 0 t) (iblk0 V c 1 t) (iblk0 V c 3 t) (iblk0 V c 4 t) (iblk0 V c 2 t)
    (V c main_arg4) (V c main_v0) (V c main_arg6) (V c main_v1) (V c main_arg3) r _ d
    (fun k => blk0_0 V c t r k) (fun k l => blk0_1 V c t k l) (fun j e => blk0_3 V c t j e) (fun e => blk0_4 V c t 0 e) (fun e => blk0_2 V c t r e)

/-- An index of the result array is in point t's block iff each coordinate is in the block's range on its axis. -/
theorem mem_blk0 (t : Fin cfg0.N) (i : S5000x64.Idx) :
    i ∈ ((cfg0.win 5).blk t).view.set ↔ ∀ a : Fin 2, win0_5.index t a * S200x64.size a ≤ (i a).val ∧ (i a).val < win0_5.index t a * S200x64.size a + S200x64.size a := by
  show i ∈ ((View.whole main_v2).slice (win0_5.rect t)).set ↔ _
  rw [View.set_slice_whole, Rect.mem_set_unit]
  exact Iff.rfl

/-- User u lies in block u / 200. -/
theorem cover0 (i : S5000x64.Idx) : ∃ t : Fin cfg0.N, (cfg0.win 5).flush t = true ∧ i ∈ ((cfg0.win 5).blk t).view.set := by
  have hi0 : (i 0).val < 5000 := (i 0).isLt
  have hi1 : (i 1).val < 64 := (i 1).isLt
  have hN : cfg0.N = 25 := N_0
  obtain ⟨t, ht⟩ : ∃ t : Fin cfg0.N, t.val = (i 0).val / 200 := ⟨⟨(i 0).val / 200, by rw [hN]; omega⟩, rfl⟩
  obtain ⟨-, -, -, -, -, -, -, -, -, -, e50, e51⟩ := idx0 t
  refine ⟨t, flush0_5 t, ?_⟩
  rw [mem_blk0]
  intro a
  match a with
  | ⟨0, _⟩ => show win0_5.index t (0 : Fin 2) * 200 ≤ (i 0).val ∧ (i 0).val < win0_5.index t (0 : Fin 2) * 200 + 200; rw [e50, ht]; omega
  | ⟨1, _⟩ => show win0_5.index t (1 : Fin 2) * 64 ≤ (i 1).val ∧ (i 1).val < win0_5.index t (1 : Fin 2) * 64 + 64; rw [e51]; omega

/-- The users' embeddings array after the first call. -/
theorem final0 (c : Dev nD) : (dat0 V c).arrAt 5 cfg0.N = G0 V c :=
  (dat0 V c).arrAt_eq_of_cover 5 (G0 V c) (fun t _ => flushed0_eq V c t) (cover0)

end Cert.KernelIdeal.NetValue0

end
-- ==== Proof.PayStage2.lean ====
/-
  The second kernel body read at an entry.

  On a block of 400 points of interest the body adds, to the block it finds, the product of the block's incidence rows
  [400, 5000] with the users' gated table [5000, 64]; both operands pass through a cast to their own shape, which changes
  nothing. Entry (r, d) is therefore the old entry plus  Σ_u row_r(u) · G(u, d), the users read back by point r.
-/
import proofs.«146408_g23742579212952_cont_8to1_365_25_alg».proof.Proof.Gen.KernelIdeal.Skeleton
import proofs.«146408_g23742579212952_cont_8to1_365_25_alg».proof.Proof.Spec
import proofs.«146408_g23742579212952_cont_8to1_365_25_alg».proof.Proof.LibPlainMatmul
import Idealize.ShloMosaic.Lib.Pipeline.Value
import Idealize.ShloMosaic.Lib.ValueIdx
import Idealize.ShloMosaic.PureOps.Ideal

noncomputable section

open scoped BigOperators

namespace Cert.KernelIdeal.Pay

open Cert.KernelIdeal Idealize.ShloMosaic Idealize.ShloMosaic.ValueIdx

/-- Entry (r, d) of the second body's result: the entry found there plus the users read back along row r. -/
theorem stage2_apply (v0 : Vec Ideal S400x64 .f32) (v1 : Vec Ideal S400x5000 .bf16) (v3 : Vec Ideal S5000x64 .bf16)
    (r : Fin 400) (d : Fin 64) :
    Cert.KernelIdeal.Gen.k1_pay1 (F := Ideal) v0 v1 v3 (ix2 r d)
      = v0 (ix2 r d) + Cert.HyperConv.back (fun u => v1 (ix2 r u)) (fun u e => v3 (ix2 u e)) d := by
  unfold Cert.KernelIdeal.Gen.k1_pay1
  refine congrArg (v0 (ix2 r d) + ·) ?_
  rw [shapeCast_self, shapeCast_self]
  exact Cert.PlainMatmul.matmul_zero_apply Cert.KernelIdeal.Gen.dot_S400x5000_S5000x64_S400x64_1_0_0_1_n_n_wf none v1 v3 r d

end Cert.KernelIdeal.Pay

end
-- ==== Proof.ValueRegion1.lean ====
/-
  What the second call leaves in its result array, on the extended reals, for any contents it is entered with.

  The call walks the 25 blocks of 400 rows. At block t it reads rows 400t … 400t + 399 of the start table and of the
  point-by-user incidence and all of the users' embeddings, and writes start + incidence · embeddings into the same rows
  of the result. Every row lies in exactly one block (row p in block p / 400), so the result array ends holding, at
  (p, d), start(p, d) + Σ_u incidence(p, u) · embeddings(u, d).
-/
import proofs.«146408_g23742579212952_cont_8to1_365_25_alg».proof.Proof.FrameRegion1
import proofs.«146408_g23742579212952_cont_8to1_365_25_alg».proof.Proof.PayStage2
import Idealize.ShloMosaic.Lib.Pipeline.Value
import Idealize.ShloMosaic.Lib.ValueIdx

set_option maxRecDepth 16384

noncomputable section

namespace Cert.KernelIdeal.NetValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- start(p, d) + Σ_u incidence(p, u) · embeddings(u, d), from three arrays. -/
def netRow (a0 : S10000x64.Idx → EReal) (a3 : S10000x5000.Idx → EReal) (a4 : S5000x64.Idx → EReal) (p : Fin 10000) (d : Fin 64) : EReal :=
  a0 (ix2 p d) + HyperConv.back (fun u => a3 (ix2 p u)) (fun u e => a4 (ix2 u e)) d

/-- A block's entry is that sum when the block's rows are the arrays' rows. -/
theorem netRow_of (x2 : Vec Ideal S400x64 .f32) (x0 : Vec Ideal S400x5000 .bf16) (x1 : Vec Ideal S5000x64 .bf16)
    (a0 : S10000x64.Idx → EReal) (a3 : S10000x5000.Idx → EReal) (a4 : S5000x64.Idx → EReal) (r : Fin 400) (d : Fin 64) (p : Fin 10000)
    (h2 : x2 (ix2 r d) = a0 (ix2 p d)) (h0 : ∀ u, x0 (ix2 r u) = a3 (ix2 p u)) (h1 : ∀ u e, x1 (ix2 u e) = a4 (ix2 u e)) :
    x2 (ix2 r d) + HyperConv.back (fun u => x0 (ix2 r u)) (fun u e => x1 (ix2 u e)) d = netRow a0 a3 a4 p d := by
  unfold netRow
  have e0 : (fun u => x0 (ix2 r u)) = fun u => a3 (ix2 p u) := funext h0
  have e1 : (fun u e => x1 (ix2 u e)) = fun u e => a4 (ix2 u e) := funext fun u => funext fun e => h1 u e
  rw [h2, e0, e1]

/-- The result array after the second call: at (p, d), start(p, d) + Σ_u incidence(p, u) · embeddings(u, d). -/
def G1 (c : Dev nD) : S10000x64.Idx → EReal := fun i =>
  netRow (V c main_arg0) (V c main_v3) (V c main_v4) ⟨(i 0).val, (i 0).isLt⟩ ⟨(i 1).val, (i 1).isLt⟩

theorem G1_apply (c : Dev nD) (p : Fin 10000) (d : Fin 64) :
    G1 V c (ix2 p d) = netRow (V c main_arg0) (V c main_v3) (V c main_v4) p d := rfl

/-- The blocks' positions over the grid: block t of the row-blocked windows starts at row block t; the embeddings'
    window is the whole array. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem lt25 (t : Fin cfg1.N) : t.val < 25 := by have h := t.isLt; have hN : cfg1.N = 25 := N_1; omega

/-- Entry (r, d) of the start table's block t is entry (400 t + r, d) of the table. -/
theorem blk1_2 (c : Dev nD) (t : Fin cfg1.N) (r : Fin 400) (d : Fin 64) :
    (iblk1 V c 2 t : Vec Ideal S400x64 .f32) (ix2 r d)
      = (V c main_arg0 : S10000x64.Idx → EReal) (ix2 ⟨t.val * 400 + r.val, by have := lt25 t; have := r.isLt; omega⟩ d) := by
  obtain ⟨-, -, -, -, e20, e21, -, -⟩ := idx1 t
  unfold iblk1
  rw [View.read_apply]
  show (V c main_arg0 : S10000x64.Idx → EReal) _ = (V c main_arg0 : S10000x64.Idx → EReal) _
  refine congrArg (V c main_arg0 : S10000x64.Idx → EReal) ?_
  funext a
  apply Fin.ext
  match a with
  | ⟨0, _⟩ => show win1_2.index t (0 : Fin 2) * 400 + 1 * r.val = t.val * 400 + r.val; rw [e20]; omega
  | ⟨1, _⟩ => show win1_2.index t (1 : Fin 2) * 64 + 1 * d.val = d.val; rw [e21]; omega

/-- Entry (r, u) of the incidence's block t is entry (400 t + r, u) of the incidence. -/
theorem blk1_0 (c : Dev nD) (t : Fin cfg1.N) (r : Fin 400) (u : Fin 5000) :
    (iblk1 V c 0 t : Vec Ideal S400x5000 .bf16) (ix2 r u)
      = (V c main_v3 : S10000x5000.Idx → EReal) (ix2 ⟨t.val * 400 + r.val, by have := lt25 t; have := r.isLt; omega⟩ u) := by
  obtain ⟨e00, e01, -, -, -, -, -, -⟩ := idx1 t
  unfold iblk1
  rw [View.read_apply]
  show (V c main_v3 : S10000x5000.Idx → EReal) _ = (V c main_v3 : S10000x5000.Idx → EReal) _
  refine congrArg (V c main_v3 : S10000x5000.Idx → EReal) ?_
  funext a
  apply Fin.ext
  match a with
  | ⟨0, _⟩ => show win1_0.index t (0 : Fin 2) * 400 + 1 * r.val = t.val * 400 + r.val; rw [e00]; omega
  | ⟨1, _⟩ => show win1_0.index t (1 : Fin 2) * 5000 + 1 * u.val = u.val; rw [e01]; omega

/-- The embeddings' block at any point is the whole array. -/
theorem blk1_1 (c : Dev nD) (t : Fin cfg1.N) (u : Fin 5000) (e : Fin 64) :
    (iblk1 V c 1 t : Vec Ideal S5000x64 .bf16) (ix2 u e) = (V c main_v4 : S5000x64.Idx → EReal) (ix2 u e) := by
  obtain ⟨-, -, e10, e11, -, -, -, -⟩ := idx1 t
  unfold iblk1
  rw [View.read_apply]
  show (V c main_v4 : S5000x64.Idx → EReal) _ = (V c main_v4 : S5000x64.Idx → EReal) _
  refine congrArg (V c main_v4 : S5000x64.Idx → EReal) ?_
  funext a
  apply Fin.ext
  match a with
  | ⟨0, _⟩ => show win1_1.index t (0 : Fin 2) * 5000 + 1 * u.val = u.val; rw [e10]; omega
  | ⟨1, _⟩ => show win1_1.index t (1 : Fin 2) * 64 + 1 * e.val = e.val; rw [e11]; omega

/-- Entry (r, d) of the result's block t sits at (400 t + r, d) of the result array. -/
theorem emb1_3 (t : Fin cfg1.N) (r : Fin 400) (d : Fin 64) :
    (((cfg1.win 3).blk t).view.emb (ix2 r d) : S10000x64.Idx)
      = ix2 ⟨t.val * 400 + r.val, by have := lt25 t; have := r.isLt; omega⟩ d := by
  obtain ⟨-, -, -, -, -, -, e30, e31⟩ := idx1 t
  funext a
  apply Fin.ext
  match a with
  | ⟨0, _⟩ => show win1_3.index t (0 : Fin 2) * 400 + 1 * r.val = t.val * 400 + r.val; rw [e30]; omega
  | ⟨1, _⟩ => show win1_3.index t (1 : Fin 2) * 64 + 1 * d.val = d.val; rw [e31]; omega

/-- What point t writes back is block t of `G1`. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S400x5000) hz, View.ld_unit_zero (S := S5000x64) hz, View.ld_unit_zero (S := S400x64) hz]
  funext j
  obtain ⟨r, d, rfl⟩ : ∃ (r : Fin 400) (d : Fin 64), j = ix2 r d := ⟨j 0, j 1, eq_ix2 j⟩
  show k1_pay1 (F := Ideal) (iblk1 V c 2 t) (iblk1 V c 0 t) (iblk1 V c 1 t) (ix2 r d) = G1 V c (((cfg1.win 3).blk t).view.emb (ix2 r d))
  refine (Pay.stage2_apply (iblk1 V c 2 t) (iblk1 V c 0 t) (iblk1 V c 1 t) r d).trans ?_
  rw [emb1_3 t r d, G1_apply]
  exact netRow_of (iblk1 V c 2 t) (iblk1 V c 0 t) (iblk1 V c 1 t) (V c main_arg0) (V c main_v3) (V c main_v4) r d _
    (blk1_2 V c t r d) (fun u => blk1_0 V c t r u) (fun u e => blk1_1 V c t u e)

/-- An index of the result array is in point t's block iff each coordinate is in the block's range on its axis. -/
theorem mem_blk1 (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v5).slice (win1_3.rect t)).set ↔ _
  rw [View.set_slice_whole, Rect.mem_set_unit]
  exact Iff.rfl

/-- Row p lies in block p / 400. -/
theorem cover1 (i : S10000x64.Idx) : ∃ t : Fin cfg1.N, (cfg1.win 3).flush t = true ∧ i ∈ ((cfg1.win 3).blk t).view.set := by
  have hi0 : (i 0).val < 10000 := (i 0).isLt
  have hi1 : (i 1).val < 64 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, e30, e31⟩ := idx1 t
  refine ⟨t, flush1_3 t, ?_⟩
  rw [mem_blk1]
  intro a
  match a with
  | ⟨0, _⟩ => show win1_3.index t (0 : Fin 2) * 400 ≤ (i 0).val ∧ (i 0).val < win1_3.index t (0 : Fin 2) * 400 + 400; rw [e30, ht]; omega
  | ⟨1, _⟩ => show win1_3.index t (1 : Fin 2) * 64 ≤ (i 1).val ∧ (i 1).val < win1_3.index t (1 : Fin 2) * 64 + 64; rw [e31]; omega

/-- The result array after the second call. -/
theorem final1 (c : Dev nD) : (dat1 V c).arrAt 3 cfg1.N = G1 V c :=
  (dat1 V c).arrAt_eq_of_cover 3 (G1 V c) (fun t _ => flushed1_eq V c t) (cover1)

end Cert.KernelIdeal.NetValue

end
-- ==== Proof.LibJoinThree.lean ====
/-
  Three matrices of one shape joined along the columns, read at an entry.

  With three pieces `f₀ f₁ f₂` of `A` rows and `K` columns joined into `W` columns, column `l` of the joined matrix is
  column `l % K` of piece `l / K`, on the same row. The three pieces are given as a literal list, as a printed program spells them.
-/
import proofs.«146408_g23742579212952_cont_8to1_365_25_alg».proof.Proof.LibJoinAxis

namespace Cert.LibJoinThree

open Idealize.ShloMosaic Idealize.ShloMosaic.ValueIdx

/-- The join of three `[A, K]` matrices along the columns, at row `p` and column `l`: piece `n = l / K` at column `c = l % K`. -/
theorem join3_apply {α : Type} {A K W : Nat} (f0 f1 f2 : (⟨2, ![A, K]⟩ : Shape).Idx → α)
    (h : Shape.Concatenates
      (([⟨⟨2, ![A, K]⟩, f0⟩, ⟨⟨2, ![A, K]⟩, f1⟩, ⟨⟨2, ![A, K]⟩, f2⟩] : List ((s : Shape) × (s.Idx → α))).map (·.1)) ⟨2, ![A, W]⟩ 1)
    (p : Fin A) (l : Fin W) (n : Fin 3) (hn : l.val / K = n.val) (c : Fin K) (hc : c.val = l.val % K) :
    concatenate ⟨2, ![A, W]⟩ 1 [⟨⟨2, ![A, K]⟩, f0⟩, ⟨⟨2, ![A, K]⟩, f1⟩, ⟨⟨2, ![A, K]⟩, f2⟩] h (ix2 p l)
      = (![f0, f1, f2] : Fin 3 → (⟨2, ![A, K]⟩ : Shape).Idx → α) n (ix2 p c) :=
  Cert.LibJoinAxis.joinCols_apply (N := 3) (K := K) (fun n => (![f0, f1, f2] : Fin 3 → (⟨2, ![A, K]⟩ : Shape).Idx → α) n) h p l n hn c hc

end Cert.LibJoinThree
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.HostLayout.lean ====
/-
  The host operations that prepare the kernels' operands, read at an entry.

  Before the first kernel the three [10000, 64] tables geo, seq, poi are joined along the columns into one [10000, 192]
  table, so its columns 0–63, 64–127, 128–191 on row k are row k of geo, seq, poi; the bias vector [64] becomes the
  one-row matrix [1, 64], whose entry (0, e) is the vector's entry e; and a change of float format is, on the extended
  reals, the identity at every entry.
-/
import proofs.«146408_g23742579212952_cont_8to1_365_25_alg».proof.KernelIdeal
import proofs.«146408_g23742579212952_cont_8to1_365_25_alg».proof.Proof.LibJoinThree
import proofs.«146408_g23742579212952_cont_8to1_365_25_alg».proof.Proof.LibRowVector
import Idealize.ShloMosaic.Lib.Pipeline.Value
import Idealize.ShloMosaic.Lib.ValueIdx
import Idealize.ShloMosaic.PureOps.Ideal

noncomputable section

namespace Cert.KernelIdeal.HostLayout

open Cert.KernelIdeal Idealize.ShloMosaic Idealize.ShloMosaic.ValueIdx

/-! ## Over any evidence of the shape relations -/

/-- Columns 0–63 of the joined table are the first piece. -/
theorem join_first (a1 a2 a0 : FVec Ideal S10000x64 .f32)
    (h : Shape.Concatenates [S10000x64, S10000x64, S10000x64] S10000x192 1) (k : Fin 10000) (e : Fin 64) :
    concatenate S10000x192 1 [⟨S10000x64, a1⟩, ⟨S10000x64, a2⟩, ⟨S10000x64, a0⟩] h
        (ix2 k ⟨e.val, by have := e.isLt; omega⟩) = a1 (ix2 k e) :=
  Cert.LibJoinThree.join3_apply (A := 10000) (K := 64) (W := 192) a1 a2 a0 h k ⟨e.val, by have := e.isLt; omega⟩ 0
    (by show e.val / 64 = 0; have := e.isLt; omega) e (by show e.val = e.val % 64; have := e.isLt; omega)

/-- Columns 64–127 of the joined table are the second piece. -/
theorem join_second (a1 a2 a0 : FVec Ideal S10000x64 .f32)
    (h : Shape.Concatenates [S10000x64, S10000x64, S10000x64] S10000x192 1) (k : Fin 10000) (e : Fin 64) :
    concatenate S10000x192 1 [⟨S10000x64, a1⟩, ⟨S10000x64, a2⟩, ⟨S10000x64, a0⟩] h
        (ix2 k ⟨64 + e.val, by have := e.isLt; omega⟩) = a2 (ix2 k e) :=
  Cert.LibJoinThree.join3_apply (A := 10000) (K := 64) (W := 192) a1 a2 a0 h k ⟨64 + e.val, by have := e.isLt; omega⟩ 1
    (by show (64 + e.val) / 64 = 1; have := e.isLt; omega) e (by show e.val = (64 + e.val) % 64; have := e.isLt; omega)

/-- Columns 128–191 of the joined table are the third piece. -/
theorem join_third (a1 a2 a0 : FVec Ideal S10000x64 .f32)
    (h : Shape.Concatenates [S10000x64, S10000x64, S10000x64] S10000x192 1) (k : Fin 10000) (e : Fin 64) :
    concatenate S10000x192 1 [⟨S10000x64, a1⟩, ⟨S10000x64, a2⟩, ⟨S10000x64, a0⟩] h
        (ix2 k ⟨128 + e.val, by have := e.isLt; omega⟩) = a0 (ix2 k e) :=
  Cert.LibJoinThree.join3_apply (A := 10000) (K := 64) (W := 192) a1 a2 a0 h k ⟨128 + e.val, by have := e.isLt; omega⟩ 2
    (by show (128 + e.val) / 64 = 2; have := e.isLt; omega) e (by show e.val = (128 + e.val) % 64; have := e.isLt; omega)

/-- Entry (0, e) of the bias vector laid as a one-row matrix is the vector's entry e. -/
theorem row_of_vector (b : FVec Ideal S64 .f32) (h : S64.ShapeCasts S1x64) (e : Fin 64) :
    shapeCast S1x64 b h (ix2 0 e) = b (ix1 e) :=
  Cert.RowVector.shapeCast_b_1b_apply b h 0 e

/-! ## With the program's own evidence -/

section
variable [Facts₀]
open Facts₀

/-- Row k of the joined table, columns 0–63: row k of geo. -/
theorem rhs_geo (a1 a2 a0 : FVec Ideal S10000x64 .f32) (k : Fin 10000) (e : Fin 64) :
    concatenate S10000x192 1 [⟨S10000x64, a1⟩, ⟨S10000x64, a2⟩, ⟨S10000x64, a0⟩]
        concatenates_S10000x64_S10000x64_S10000x64_S10000x192_d1 (ix2 k ⟨e.val, by have := e.isLt; omega⟩) = a1 (ix2 k e) :=
  join_first a1 a2 a0 _ k e

/-- Row k of the joined table, columns 64–127: row k of seq. -/
theorem rhs_seq (a1 a2 a0 : FVec Ideal S10000x64 .f32) (k : Fin 10000) (e : Fin 64) :
    concatenate S10000x192 1 [⟨S10000x64, a1⟩, ⟨S10000x64, a2⟩, ⟨S10000x64, a0⟩]
        concatenates_S10000x64_S10000x64_S10000x64_S10000x192_d1 (ix2 k ⟨64 + e.val, by have := e.isLt; omega⟩) = a2 (ix2 k e) :=
  join_second a1 a2 a0 _ k e

/-- Row k of the joined table, columns 128–191: row k of poi. -/
theorem rhs_poi (a1 a2 a0 : FVec Ideal S10000x64 .f32) (k : Fin 10000) (e : Fin 64) :
    concatenate S10000x192 1 [⟨S10000x64, a1⟩, ⟨S10000x64, a2⟩, ⟨S10000x64, a0⟩]
        concatenates_S10000x64_S10000x64_S10000x64_S10000x192_d1 (ix2 k ⟨128 + e.val, by have := e.isLt; omega⟩) = a0 (ix2 k e) :=
  join_third a1 a2 a0 _ k e

/-- The bias row handed to the first kernel: entry (0, e) is the bias vector's entry e. -/
theorem bias_apply (b : FVec Ideal S64 .f32) (e : Fin 64) :
    shapeCast S1x64 b shapeCasts_S64_S1x64 (ix2 0 e) = b (ix1 e) :=
  row_of_vector b _ e

/-- The host's conversion to bf16 changes no entry. -/
theorem truncf_apply {S : Shape} (x : FVec Ideal S .f32) (i : S.Idx) :
    (truncf .bf16 x bitsLt_bf16_f32 : FVec Ideal S .bf16) i = x i := rfl

end

end Cert.KernelIdeal.HostLayout

end
-- ==== Proof.NetArr.lean ====
/-
  The network's result as ONE function of its eight argument arrays, index by index.

  The tables of Spec.lean read off arrays of literal shapes: entry (p, d) of the result is `net` of the arrays' entries.
  Argument order: the start / third table `poi` [10000, 64], `geo` [10000, 64], `seq` [10000, 64], the users' features
  [5000, 64], the user-by-point incidence [5000, 10000], the point-by-user incidence [10000, 5000], the fusion
  weights [448, 64], the fusion bias [64].
-/
import proofs.«146408_g23742579212952_cont_8to1_365_25_alg».proof.Proof.Spec
import Idealize.ShloMosaic.Lib.ValueIdx

noncomputable section

namespace Cert.HyperConv

open Idealize.ShloMosaic Idealize.ShloMosaic.ValueIdx

/-- A matrix array as a table of its coordinates. -/
def tab {a b : ℕ} (x : (⟨2, ![a, b]⟩ : Shape).Idx → EReal) : Fin a → Fin b → EReal := fun p q => x (ix2 p q)

/-- A vector array as a function of its coordinate. -/
def vec {a : ℕ} (x : (⟨1, ![a]⟩ : Shape).Idx → EReal) : Fin a → EReal := fun p => x (ix1 p)

/-- The result array of the network on the eight argument arrays. -/
def netArr (poi geo seq : (⟨2, ![10000, 64]⟩ : Shape).Idx → EReal) (users : (⟨2, ![5000, 64]⟩ : Shape).Idx → EReal)
    (Hup : (⟨2, ![5000, 10000]⟩ : Shape).Idx → EReal) (Hpu : (⟨2, ![10000, 5000]⟩ : Shape).Idx → EReal)
    (W : (⟨2, ![448, 64]⟩ : Shape).Idx → EReal) (b : (⟨1, ![64]⟩ : Shape).Idx → EReal) :
    (⟨2, ![10000, 64]⟩ : Shape).Idx → EReal :=
  fun i => net (tab Hup) (tab Hpu) (tab geo) (tab seq) (tab poi) (tab W) (vec b) (tab users)
    ⟨(i 0).val, (i 0).isLt⟩ ⟨(i 1).val, (i 1).isLt⟩

theorem netArr_apply (poi geo seq : (⟨2, ![10000, 64]⟩ : Shape).Idx → EReal) (users : (⟨2, ![5000, 64]⟩ : Shape).Idx → EReal)
    (Hup : (⟨2, ![5000, 10000]⟩ : Shape).Idx → EReal) (Hpu : (⟨2, ![10000, 5000]⟩ : Shape).Idx → EReal)
    (W : (⟨2, ![448, 64]⟩ : Shape).Idx → EReal) (b : (⟨1, ![64]⟩ : Shape).Idx → EReal) (p : Fin 10000) (d : Fin 64) :
    netArr poi geo seq users Hup Hpu W b (ix2 p d)
      = net (tab Hup) (tab Hpu) (tab geo) (tab seq) (tab poi) (tab W) (vec b) (tab users) p d := rfl

end Cert.HyperConv

end
-- ==== Proof.KernelNet.lean ====
/-
  The kernel program's result array on the extended reals, as the network of the argument arrays.

  Reading the program's buffers in order: the joined table is [geo | seq | poi] column group by column group and the bias
  row is the bias vector; the first call leaves the users' gated embeddings (its entry contents are the arguments, the
  joined table and the bias row); rounding to bf16 changes nothing on the extended reals; the second call leaves, at
  (p, d), poi(p, d) + Σ_u Hpu(p, u) · embeddings(u, d). Entry by entry that is the network's start plus one layer.
-/
import proofs.«146408_g23742579212952_cont_8to1_365_25_alg».proof.Proof.FrameRun
import proofs.«146408_g23742579212952_cont_8to1_365_25_alg».proof.Proof.ValueRegion0
import proofs.«146408_g23742579212952_cont_8to1_365_25_alg».proof.Proof.ValueRegion1
import proofs.«146408_g23742579212952_cont_8to1_365_25_alg».proof.Proof.HostLayout
import proofs.«146408_g23742579212952_cont_8to1_365_25_alg».proof.Proof.NetArr
import Idealize.ShloMosaic.Lib.StableHlo.Run

set_option maxRecDepth 16384

noncomputable section

namespace Cert.KernelIdeal.NetRun

open Cert.KernelIdeal Cert.KernelIdeal.Gen Cert.KernelIdeal.Frame
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The first call's entry contents -/

/-- A buffer the first host stretch does not write holds its launch contents. -/
theorem V1_arg (c : Dev nD) (r : Ref sig .tc) (h : r ∉ ([main_v0, main_v1] : List (Ref sig .tc))) :
    V1 m ρ c r = m ((c : Thread nD τ).loc r) := after0_of (W0 m ρ c) r h

/-- The joined table is the three tables side by side. -/
theorem V1_v0 (c : Dev nD) : (V1 m ρ c main_v0 : S10000x192.Idx → EReal)
    = concatenate S10000x192 1 [⟨S10000x64, m ((c : Thread nD τ).loc main_arg1)⟩, ⟨S10000x64, m ((c : Thread nD τ).loc main_arg2)⟩, ⟨S10000x64, m ((c : Thread nD τ).loc main_arg0)⟩]
        concatenates_S10000x64_S10000x64_S10000x64_S10000x192_d1 := by
  show StableHlo.after hostOps0 (W0 m ρ c) (Proc.devRef .tc main_v0) = _
  dsimp only [hostOps0]
  after_results
  rfl

/-- The bias row is the bias vector viewed as one row. -/
theorem V1_v1 (c : Dev nD) : (V1 m ρ c main_v1 : S1x64.Idx → EReal) = shapeCast S1x64 (m ((c : Thread nD τ).loc main_arg7)) shapeCasts_S64_S1x64 := by
  show StableHlo.after hostOps0 (W0 m ρ c) (Proc.devRef .tc main_v1) = _
  dsimp only [hostOps0]
  after_results
  rfl

/-! ## The second call's entry contents -/

/-- A buffer the second host stretch does not write holds what the first call left. -/
theorem V3_of (c : Dev nD) (r : Ref sig .tc) (h : r ∉ ([main_v3, main_v4] : List (Ref sig .tc))) :
    V3 m ρ c r = W2 m ρ c (Proc.devRef .tc r) := after1_of (W2 m ρ c) r h

/-- The start table reaches the second call as launched. -/
theorem V3_arg0 (c : Dev nD) : V3 m ρ c main_arg0 = m ((c : Thread nD τ).loc main_arg0) :=
  (V3_of m ρ c main_arg0 (by decide)).trans ((W2_of_ne m ρ c main_arg0 (by decide)).trans (V1_arg m ρ c main_arg0 (by decide)))

/-- The point-by-user incidence reaches the second call rounded, which is itself on the extended reals. -/
theorem V3_v3 (c : Dev nD) : (V3 m ρ c main_v3 : S10000x5000.Idx → EReal)
    = (truncf .bf16 (W2 m ρ c (Proc.devRef .tc main_arg5) : FVec Ideal S10000x5000 .f32) bitsLt_bf16_f32 : FVec Ideal S10000x5000 .bf16) := by
  show StableHlo.after hostOps1 (W2 m ρ c) (Proc.devRef .tc main_v3) = _
  dsimp only [hostOps1]
  after_results

theorem W2_arg5 (c : Dev nD) : W2 m ρ c (Proc.devRef .tc main_arg5) = m ((c : Thread nD τ).loc main_arg5) :=
  (W2_of_ne m ρ c main_arg5 (by decide)).trans (V1_arg m ρ c main_arg5 (by decide))

/-- The embeddings reach the second call rounded, which is themselves on the extended reals. -/
theorem V3_v4 (c : Dev nD) : (V3 m ρ c main_v4 : S5000x64.Idx → EReal)
    = (truncf .bf16 (W2 m ρ c (Proc.devRef .tc main_v2) : FVec Ideal S5000x64 .f32) bitsLt_bf16_f32 : FVec Ideal S5000x64 .bf16) := by
  show StableHlo.after hostOps1 (W2 m ρ c) (Proc.devRef .tc main_v4) = _
  dsimp only [hostOps1]
  after_results

/-- What the first call left in the embeddings array. -/
theorem W2_v2 (c : Dev nD) : (W2 m ρ c (Proc.devRef .tc main_v2) : S5000x64.Idx → EReal) = NetValue0.G0 (V1 m ρ) c :=
  (W2_arr m ρ c 5).trans (NetValue0.final0 (V1 m ρ) c)

/-! ## The embeddings are the network's -/

/-- Entry (u, e) of the embeddings array is the gated embedding of user u at feature e, of the argument arrays. -/
theorem embeddings_apply (c : Dev nD) (u : Fin 5000) (e : Fin 64) :
    NetValue0.G0 (V1 m ρ) c (ix2 u e)
      = HyperConv.hg (HyperConv.tab (m ((c : Thread nD τ).loc main_arg4))) (HyperConv.tab (m ((c : Thread nD τ).loc main_arg1))) (HyperConv.tab (m ((c : Thread nD τ).loc main_arg2)))
          (HyperConv.tab (m ((c : Thread nD τ).loc main_arg0))) (HyperConv.tab (m ((c : Thread nD τ).loc main_arg6))) (HyperConv.vec (m ((c : Thread nD τ).loc main_arg7)))
          (HyperConv.tab (m ((c : Thread nD τ).loc main_arg3))) u e := by
  rw [NetValue0.G0_apply]
  unfold NetValue0.gatedAt HyperConv.hg
  refine NetValue0.gatedRow_congr (funext fun k => ?_) (funext fun k => funext fun f => ?_) (funext fun k => funext fun f => ?_)
    (funext fun k => funext fun f => ?_) (funext fun j => funext fun f => ?_) (funext fun f => ?_) (funext fun f => ?_) e
  · exact congrFun (V1_arg m ρ c main_arg4 (by decide)) (ix2 u k)
  · exact (congrFun (V1_v0 m ρ c) _).trans (HostLayout.rhs_geo _ _ _ k f)
  · exact (congrFun (V1_v0 m ρ c) _).trans (HostLayout.rhs_seq _ _ _ k f)
  · exact (congrFun (V1_v0 m ρ c) _).trans (HostLayout.rhs_poi _ _ _ k f)
  · exact congrFun (V1_arg m ρ c main_arg6 (by decide)) (ix2 j f)
  · exact (congrFun (V1_v1 m ρ c) _).trans (HostLayout.bias_apply _ f)
  · exact congrFun (V1_arg m ρ c main_arg3 (by decide)) (ix2 u f)

/-! ## The result -/

/-- The result array after the second call is the network of the argument arrays. -/
theorem result_net (c : Dev nD) : (dat1 (V3 m ρ) c).arrAt 3 cfg1.N
    = HyperConv.netArr (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [NetValue.final1]
  funext i
  obtain ⟨p, d, rfl⟩ : ∃ (p : Fin 10000) (d : Fin 64), i = ix2 p d := ⟨i 0, i 1, eq_ix2 i⟩
  rw [NetValue.G1_apply, HyperConv.netArr_apply]
  unfold NetValue.netRow HyperConv.net HyperConv.layer
  refine congrArg₂ (· + ·) ?_ (congrArg₂ (fun f g => HyperConv.back f g d) (funext fun u => ?_) (funext fun u => funext fun e => ?_))
  · exact congrFun (V3_arg0 m ρ c) (ix2 p d)
  · exact (congrFun (V3_v3 m ρ c) (ix2 p u)).trans ((HostLayout.truncf_apply _ _).trans (congrFun (W2_arg5 m ρ c) (ix2 p u)))
  · exact (congrFun (V3_v4 m ρ c) (ix2 u e)).trans ((HostLayout.truncf_apply _ _).trans
      ((congrFun (W2_v2 m ρ c) (ix2 u e)).trans (embeddings_apply m ρ c u e)))

/-- THE KERNEL'S RUN, READ: every fair execution ends, faults nowhere, leaves the result array at the network of the
    argument arrays and each argument array as launched. -/
theorem run : θ_run defs (onTc (τ := τ) (main (F := Ideal))) ⟨m, fun _ => 0, ρ⟩ (fun r => ∀ c : Dev nD,
      r.2.mem ((c.tc : Thread nD τ).loc main_v5)
        = HyperConv.netArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_net m ρ c), (h c).2⟩) (run_result m ρ)

end Cert.KernelIdeal.NetRun

end
-- ==== Proof.RefRead.lean ====
import proofs.«146408_g23742579212952_cont_8to1_365_25_alg».proof.Proof.Gen.ReferenceIdeal.Read

/-! The reference program's run and its stages read at an index (the generated modules), gathered under one name. -/
-- ==== Proof.RefLayer.lean ====
/-
  The reference program's layer, entry by entry, is the layer of the specification.

  Each stage of the reference is read at one entry and matched with the table it computes: the three aggregates
  Hup · geo, Hup · seq, Hup · poi are the sums Σ_k h_k · X(k, d); the seven messages joined along the columns are the
  message row (message l / 64 at feature l % 64); the affine map and the gate are the fused and the gated row; the
  product with the point-by-user incidence reads the users back. All equalities are term by term: no sum is reordered
  and no value needs to be finite.
-/
import proofs.«146408_g23742579212952_cont_8to1_365_25_alg».proof.Proof.RefRead
import proofs.«146408_g23742579212952_cont_8to1_365_25_alg».proof.Proof.NetArr
import proofs.«146408_g23742579212952_cont_8to1_365_25_alg».proof.Proof.LibJoinAxis
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.RefLayer

open Idealize.ShloMosaic Idealize.ShloMosaic.ValueIdx
open Cert.ReferenceIdeal Cert.ReferenceIdeal.Gen Cert.ReferenceIdeal.Read Cert.HyperConv

/-- The argument arrays: the three point tables, the users' features, the two incidence matrices, the fusion map. -/
abbrev A0 := (⟨S10000x64, .f32⟩ : BufTy).Contents (Elt Ideal)
abbrev A3 := (⟨S5000x64, .f32⟩ : BufTy).Contents (Elt Ideal)
abbrev A4 := (⟨S5000x10000, .f32⟩ : BufTy).Contents (Elt Ideal)
abbrev A5 := (⟨S10000x5000, .f32⟩ : BufTy).Contents (Elt Ideal)
abbrev A6 := (⟨S448x64, .f32⟩ : BufTy).Contents (Elt Ideal)
abbrev A7 := (⟨S64, .f32⟩ : BufTy).Contents (Elt Ideal)

/-- A matrix index whose two coordinates are known is the index of those coordinates. -/
theorem idx2_eq {a b : ℕ} (f : (⟨2, ![a, b]⟩ : Shape).Idx) (p : Fin a) (q : Fin b) (h0 : f 0 = p) (h1 : f 1 = q) :
    f = ix2 p q := by
  funext e
  match e with
  | ⟨0, _⟩ => exact h0
  | ⟨1, _⟩ => exact h1

/-- A product of the user-by-point incidence with a point table, at user u and feature d, is the aggregate of the
    user's incidence row against the table's column. -/
theorem agg0 (x : A0) (x4 : A4) (u : Fin 5000) (d : Fin 64) :
    val_main_v0 (F := Ideal) x x4 (ix2 u d) = agg (tab x4 u) (tab x) d := by
  rw [val_main_v0_apply]
  show (∑ k : Fin 10000, _) = ∑ k : Fin 10000, x4 (ix2 u k) * x (ix2 k d)
  exact Finset.sum_congr rfl fun k _ =>
    congrArg₂ (· * ·) (congrArg x4 (idx2_eq _ u k rfl rfl)) (congrArg x (idx2_eq _ k d rfl rfl))

theorem agg1 (x : A0) (x4 : A4) (u : Fin 5000) (d : Fin 64) :
    val_main_v1 (F := Ideal) x x4 (ix2 u d) = agg (tab x4 u) (tab x) d := by
  rw [val_main_v1_apply]
  show (∑ k : Fin 10000, _) = ∑ k : Fin 10000, x4 (ix2 u k) * x (ix2 k d)
  exact Finset.sum_congr rfl fun k _ =>
    congrArg₂ (· * ·) (congrArg x4 (idx2_eq _ u k rfl rfl)) (congrArg x (idx2_eq _ k d rfl rfl))

theorem agg2 (x : A0) (x4 : A4) (u : Fin 5000) (d : Fin 64) :
    val_main_v2 (F := Ideal) x x4 (ix2 u d) = agg (tab x4 u) (tab x) d := by
  rw [val_main_v2_apply]
  show (∑ k : Fin 10000, _) = ∑ k : Fin 10000, x4 (ix2 u k) * x (ix2 k d)
  exact Finset.sum_congr rfl fun k _ =>
    congrArg₂ (· * ·) (congrArg x4 (idx2_eq _ u k rfl rfl)) (congrArg x (idx2_eq _ k d rfl rfl))

/-- The seven messages of every user, in the order the reference joins them: the three aggregates, their three
    pairwise products, and the triple product. -/
def msgs (x0 x1 x2 : A0) (x4 : A4) : Fin 7 → (⟨2, ![5000, 64]⟩ : Shape).Idx → EReal :=
  ![val_main_v0 (F := Ideal) x1 x4, val_main_v1 (F := Ideal) x2 x4, val_main_v2 (F := Ideal) x0 x4,
    val_main_v3 (F := Ideal) x1 x2 x4, val_main_v4 (F := Ideal) x0 x1 x4, val_main_v5 (F := Ideal) x0 x2 x4,
    val_main_v7 (F := Ideal) x0 x1 x2 x4]

/-- Column l of the joined messages is column l % 64 of message l / 64. -/
theorem join7 (x0 x1 x2 : A0) (x4 : A4) (u : Fin 5000) (l : Fin 448) (n : Fin 7) (hn : l.val / 64 = n.val)
    (c : Fin 64) (hc : c.val = l.val % 64) :
    val_main_v8 (F := Ideal) x0 x1 x2 x4 (ix2 u l) = msgs x0 x1 x2 x4 n (ix2 u c) :=
  Cert.LibJoinAxis.joinCols_apply (A := 5000) (K := 64) (N := 7) (W := 448) (fun n => msgs x0 x1 x2 x4 n)
    concatenates_S5000x64_S5000x64_S5000x64_S5000x64_S5000x64_S5000x64_S5000x64_S5000x448_d1 u l n hn c hc

/-- Message n of user u at feature c is piece n of the three aggregates there. -/
theorem msgs_apply (x0 x1 x2 : A0) (x4 : A4) (u : Fin 5000) (c : Fin 64) (n : Fin 7) :
    msgs x0 x1 x2 x4 n (ix2 u c)
      = pieces (agg (tab x4 u) (tab x1) c) (agg (tab x4 u) (tab x2) c) (agg (tab x4 u) (tab x0) c) n := by
  rw [← agg0 x1 x4 u c, ← agg1 x2 x4 u c, ← agg2 x0 x4 u c]
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The joined messages of user u, at column l, are the message row of the specification. -/
theorem msg_apply (x0 x1 x2 : A0) (x4 : A4) (u : Fin 5000) (l : Fin 448) :
    val_main_v8 (F := Ideal) x0 x1 x2 x4 (ix2 u l) = msgRow (tab x4 u) (tab x1) (tab x2) (tab x0) l :=
  (join7 x0 x1 x2 x4 u l ⟨l.val / 64, by have := l.isLt; omega⟩ rfl ⟨l.val % 64, Nat.mod_lt _ (by norm_num)⟩ rfl).trans
    (msgs_apply x0 x1 x2 x4 u _ _)

/-- The affine map of the joined messages plus the bias, at user u and feature d, is the fused row. -/
theorem fused_apply (x0 x1 x2 : A0) (x4 : A4) (x6 : A6) (x7 : A7) (u : Fin 5000) (d : Fin 64) :
    val_main_v12 (F := Ideal) x0 x1 x2 x4 x6 x7 (ix2 u d)
      = fusedRow (tab x4 u) (tab x1) (tab x2) (tab x0) (tab x6) (vec x7) d := by
  rw [val_main_v12_apply, val_main_v9_apply, val_main_v11_apply, val_main_v10_apply]
  show (∑ k : Fin 448, _) + _
    = (∑ j : Fin 448, msgRow (tab x4 u) (tab x1) (tab x2) (tab x0) j * x6 (ix2 j d)) + x7 (ix1 d)
  refine congrArg₂ (· + ·) (Finset.sum_congr rfl fun k _ => ?_) (congrArg x7 ?_)
  · rw [idx2_eq (lidx_main_v9 (ix2 u d) k) u k rfl rfl, idx2_eq (ridx_main_v9 (ix2 u d) k) k d rfl rfl, msg_apply]
  · funext a
    match a with
    | ⟨0, _⟩ => rfl

/-- The gate e + u_d + e · u_d on the fused row e. -/
theorem gated_apply (x0 x1 x2 : A0) (x3 : A3) (x4 : A4) (x6 : A6) (x7 : A7) (u : Fin 5000) (d : Fin 64) :
    val_main_v15 (F := Ideal) x0 x1 x2 x3 x4 x6 x7 (ix2 u d)
      = gatedRow (tab x4 u) (tab x1) (tab x2) (tab x0) (tab x6) (vec x7) (tab x3 u) d := by
  rw [val_main_v15_apply, val_main_v13_apply, val_main_v14_apply, fused_apply]
  rfl

/-- The product of the point-by-user incidence with the gated users, at point p and feature d, is the layer. -/
theorem layer_apply (x0 x1 x2 : A0) (x3 : A3) (x4 : A4) (x5 : A5) (x6 : A6) (x7 : A7) (p : Fin 10000) (d : Fin 64) :
    val_main_v16 (F := Ideal) x0 x1 x2 x3 x4 x5 x6 x7 (ix2 p d)
      = layer (tab x4) (tab x5) (tab x1) (tab x2) (tab x0) (tab x6) (vec x7) (tab x3) p d := by
  rw [val_main_v16_apply]
  show (∑ k : Fin 5000, _)
    = ∑ k : Fin 5000, x5 (ix2 p k) * gatedRow (tab x4 k) (tab x1) (tab x2) (tab x0) (tab x6) (vec x7) (tab x3 k) d
  exact Finset.sum_congr rfl fun k _ => by
    rw [idx2_eq (lidx_main_v16 (ix2 p d) k) p k rfl rfl, idx2_eq (ridx_main_v16 (ix2 p d) k) k d rfl rfl, gated_apply]

/-- The second layer is the first one again: the same operations on the same arguments. -/
theorem second_layer (x0 x1 x2 : A0) (x3 : A3) (x4 : A4) (x5 : A5) (x6 : A6) (x7 : A7) :
    val_main_v34 (F := Ideal) x0 x1 x2 x3 x4 x5 x6 x7 = val_main_v16 (F := Ideal) x0 x1 x2 x3 x4 x5 x6 x7 := rfl

end Cert.RefLayer

end
-- ==== Proof.RefNet.lean ====
/-
  The reference program computes the network of the specification.

  After the layer (the same for both rounds, since it reads only arguments), the reference keeps the three iterates
  x, Y + x, Y + (Y + x), stacks them as three [1, 10000, 64] slices along a new leading axis, sums over that axis from 0
  and divides by 3. At an entry (p, d) that is the mean of the three iterates of x = poi(p, d) and Y = layer(p, d), which
  is x + Y as soon as x is a real number; Y may be any extended real.
-/
import proofs.«146408_g23742579212952_cont_8to1_365_25_alg».proof.Defs
import proofs.«146408_g23742579212952_cont_8to1_365_25_alg».proof.Proof.RefRead
import proofs.«146408_g23742579212952_cont_8to1_365_25_alg».proof.Proof.NetArr
import proofs.«146408_g23742579212952_cont_8to1_365_25_alg».proof.Proof.RefLayer
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.RefNet

open Idealize.ShloMosaic Idealize.ShloMosaic.ValueIdx Idealize.ShloMosaic.TcCoe Idealize.SL.Sem
open Cert.ReferenceIdeal Cert.ReferenceIdeal.Gen Cert.ReferenceIdeal.Read Cert.HyperConv Cert.RefLayer

/-- The f32 pattern 0x40400000 is the real number 3. -/
theorem three_f32 : Ideal.ofBits .f32 0x40400000#32 = ((3 : ℝ) : EReal) := by
  simp [Ideal.ofBits, Ideal.ieee, -EReal.coe_mul]; norm_num

/-- A rank-3 index whose three coordinates are known is the index of those coordinates. -/
theorem idx3_eq {a b c : ℕ} (f : (⟨3, ![a, b, c]⟩ : Shape).Idx) (k : Fin a) (p : Fin b) (q : Fin c)
    (h0 : f 0 = k) (h1 : f 1 = p) (h2 : f 2 = q) : f = ix3 k p q := by
  funext e
  match e with
  | ⟨0, _⟩ => exact h0
  | ⟨1, _⟩ => exact h1
  | ⟨2, _⟩ => exact h2

/-- The three iterates, each viewed as one [1, 10000, 64] slice, in the order they are stacked. -/
def iterates (x0 x1 x2 : A0) (x3 : A3) (x4 : A4) (x5 : A5) (x6 : A6) (x7 : A7) : Fin 3 → (⟨3, ![1, 10000, 64]⟩ : Shape).Idx → EReal :=
  ![val_main_v36 (F := Ideal) x0, val_main_v37 (F := Ideal) x0 x1 x2 x3 x4 x5 x6 x7, val_main_v38 (F := Ideal) x0 x1 x2 x3 x4 x5 x6 x7]

/-- Slice k of the stack is iterate k. -/
theorem stack_apply (x0 x1 x2 : A0) (x3 : A3) (x4 : A4) (x5 : A5) (x6 : A6) (x7 : A7) (k : Fin 3) (p : Fin 10000) (d : Fin 64) :
    val_main_v39 (F := Ideal) x0 x1 x2 x3 x4 x5 x6 x7 (ix3 k p d) = iterates x0 x1 x2 x3 x4 x5 x6 x7 k (ix3 (0 : Fin 1) p d) :=
  concatenate_ofFn_unit_apply (t := ⟨3, ![3, 10000, 64]⟩) (s₁ := ⟨3, ![1, 10000, 64]⟩) (0 : Fin 3)
    (fun n => iterates x0 x1 x2 x3 x4 x5 x6 x7 n) concatenates_S1x10000x64_S1x10000x64_S1x10000x64_S3x10000x64_d0 rfl rfl (ix3 k p d) k rfl (ix3 (0 : Fin 1) p d)
    (fun b hb => by
      match b with
      | ⟨0, _⟩ => exact absurd rfl hb
      | ⟨1, _⟩ => rfl
      | ⟨2, _⟩ => rfl)

/-- The iterates at an entry: x, Y + x, Y + (Y + x) with x the start and Y the layer there. -/
theorem iterates_apply (x0 x1 x2 : A0) (x3 : A3) (x4 : A4) (x5 : A5) (x6 : A6) (x7 : A7) (p : Fin 10000) (d : Fin 64) (k : Fin 3) :
    iterates x0 x1 x2 x3 x4 x5 x6 x7 k (ix3 (0 : Fin 1) p d)
      = (![x0 (ix2 p d), val_main_v16 (F := Ideal) x0 x1 x2 x3 x4 x5 x6 x7 (ix2 p d) + x0 (ix2 p d),
            val_main_v16 (F := Ideal) x0 x1 x2 x3 x4 x5 x6 x7 (ix2 p d)
              + (val_main_v16 (F := Ideal) x0 x1 x2 x3 x4 x5 x6 x7 (ix2 p d) + x0 (ix2 p d))] : Fin 3 → EReal) k := by
  match k with
  | ⟨0, _⟩ =>
    show val_main_v36 (F := Ideal) x0 (ix3 (0 : Fin 1) p d) = x0 (ix2 p d)
    rw [val_main_v36_apply]
    exact congrArg x0 (idx2_eq _ p d rfl rfl)
  | ⟨1, _⟩ =>
    show val_main_v37 (F := Ideal) x0 x1 x2 x3 x4 x5 x6 x7 (ix3 (0 : Fin 1) p d)
      = val_main_v16 (F := Ideal) x0 x1 x2 x3 x4 x5 x6 x7 (ix2 p d) + x0 (ix2 p d)
    rw [val_main_v37_apply, idx2_eq (idx_main_v37 (ix3 (0 : Fin 1) p d)) p d rfl rfl, val_main_v17_apply]
    rfl
  | ⟨2, _⟩ =>
    show val_main_v38 (F := Ideal) x0 x1 x2 x3 x4 x5 x6 x7 (ix3 (0 : Fin 1) p d)
      = val_main_v16 (F := Ideal) x0 x1 x2 x3 x4 x5 x6 x7 (ix2 p d) + (val_main_v16 (F := Ideal) x0 x1 x2 x3 x4 x5 x6 x7 (ix2 p d) + x0 (ix2 p d))
    rw [val_main_v38_apply, idx2_eq (idx_main_v38 (ix3 (0 : Fin 1) p d)) p d rfl rfl, val_main_v35_apply,
      val_main_v17_apply, second_layer]
    rfl

/-- The reference's result at an entry where the start is the real number r: the network's entry. -/
theorem result_apply (x0 x1 x2 : A0) (x3 : A3) (x4 : A4) (x5 : A5) (x6 : A6) (x7 : A7) (p : Fin 10000) (d : Fin 64) (r : ℝ) (hr : x0 (ix2 p d) = (r : EReal)) :
    val_main_v42 (F := Ideal) x0 x1 x2 x3 x4 x5 x6 x7 (ix2 p d) = netArr x0 x1 x2 x3 x4 x5 x6 x7 (ix2 p d) := by
  rw [val_main_v42_apply, val_main_v40_apply, val_main_v41_apply, val_main_cst_0_apply, val_main_cst_apply]
  simp only [Ideal.hostDivf_def, Ideal.ofBits_def, Ideal.ofBits_zero_f32, three_f32]
  have hs : ∀ k : Fin 3, val_main_v39 (F := Ideal) x0 x1 x2 x3 x4 x5 x6 x7 (idx_main_v40 (ix2 p d) k)
      = (![x0 (ix2 p d), val_main_v16 (F := Ideal) x0 x1 x2 x3 x4 x5 x6 x7 (ix2 p d) + x0 (ix2 p d),
            val_main_v16 (F := Ideal) x0 x1 x2 x3 x4 x5 x6 x7 (ix2 p d)
              + (val_main_v16 (F := Ideal) x0 x1 x2 x3 x4 x5 x6 x7 (ix2 p d) + x0 (ix2 p d))] : Fin 3 → EReal) k := fun k => by
    rw [idx3_eq (idx_main_v40 (ix2 p d) k) k p d rfl rfl rfl, stack_apply, iterates_apply]
  rw [Finset.sum_congr rfl (fun k _ => hs k)]
  show meanOfThree (x0 (ix2 p d)) (val_main_v16 (F := Ideal) x0 x1 x2 x3 x4 x5 x6 x7 (ix2 p d)) = _
  rw [hr, meanOfThree_eq, layer_apply, ← hr]
  rfl

/-- The reference's result array is the network's, provided every entry of the start table is a real number. -/
theorem result_eq (x0 x1 x2 : A0) (x3 : A3) (x4 : A4) (x5 : A5) (x6 : A6) (x7 : A7) (hfin : ∀ i, ∃ r : ℝ, x0 i = (r : EReal)) :
    val_main_v42 (F := Ideal) x0 x1 x2 x3 x4 x5 x6 x7 = netArr x0 x1 x2 x3 x4 x5 x6 x7 := by
  funext i
  obtain ⟨p, d, rfl⟩ : ∃ (p : Fin 10000) (d : Fin 64), i = ix2 p d := ⟨i 0, i 1, eq_ix2 i⟩
  obtain ⟨r, hr⟩ := hfin (ix2 p d)
  exact result_apply x0 x1 x2 x3 x4 x5 x6 x7 p d r hr

/-- The reference runs, ends with the network of its launch arguments in its result, and leaves the arguments unchanged. -/
theorem run (m' : (ℓ : Loc Cert.ReferenceIdeal.nD Cert.ReferenceIdeal.τ Cert.ReferenceIdeal.sig) → Buf (Elt Ideal) ℓ) (g' : Dev Cert.ReferenceIdeal.nD → PrngReg)
    (hfin : ∀ (c : Dev Cert.ReferenceIdeal.nD) (i : Cert.ReferenceIdeal.S10000x64.Idx), ∃ r : ℝ, m' ((c.tc : Thread Cert.ReferenceIdeal.nD Cert.ReferenceIdeal.τ).loc Cert.ReferenceIdeal.main_arg0) i = (r : EReal)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v42) = Cert.HyperConv.netArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono
    (fun _ h c => ⟨(h c).1.trans ((val_main_v42_eq m' c).trans (result_eq _ _ _ _ _ _ _ _ (hfin c))), (h c).2⟩)
    (Cert.ReferenceIdeal.Value.run (F := Ideal) m' g')

end Cert.RefNet

end
-- ==== Proof.FiniteStart.lean ====
/-
  Every entry of the start table is a real number. The precondition is the conjunction, over the eight argument arrays,
  of "every entry x has |x| < +∞"; at the extended reals |x| = max x (-x), and max x (-x) < ⊤ excludes x = ⊤ and x = ⊥.
  Only the first conjunct (the start table's) is read here.
-/
import proofs.«146408_g23742579212952_cont_8to1_365_25_alg».proof.Defs
import proofs.«146408_g23742579212952_cont_8to1_365_25_alg».proof.Proof.Gen.Pre_finite_inputs
import Idealize.ShloMosaic.Lib.ReduceAll
import Idealize.ShloMosaic.Lib.ValueIdx
import Idealize.ShloMosaic.Lib.Affine
import Idealize.ShloMosaic.PureOps.Ideal
import Idealize.ShloMosaic.PureOps.Ideal.Laws

noncomputable section

namespace Cert.FiniteStart

open Idealize.ShloMosaic Idealize.SL.Sem
open Cert.Pre_finite_inputs

/-- The f32 pattern 0x7F800000 is +∞. -/
theorem inf_f32 : Ideal.ofBits .f32 0x7F800000#32 = (⊤ : EReal) := by
  simp [Ideal.ofBits, Ideal.ieee]

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton S_.Idx := ⟨fun a b => funext fun d => d.elim0⟩

/-- The printed precondition, at the extended reals, makes every entry of the first argument a real number. -/
theorem real_of_pre [Cert.Pre_finite_inputs.Facts]
    (x0 x1 x2 : FVec Ideal S10000x64 .f32) (x3 : FVec Ideal S5000x64 .f32) (x4 : FVec Ideal S5000x10000 .f32)
    (x5 : FVec Ideal S10000x5000 .f32) (x6 : FVec Ideal S448x64 .f32) (x7 : FVec Ideal S64 .f32)
    (h : Cert.Pre_finite_inputs.fn (F := Ideal) x0 x1 x2 x3 x4 x5 x6 x7 = (fun _ => 1#1)) (i : S10000x64.Idx) :
    ∃ r : ℝ, x0 i = (r : EReal) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨h0, -⟩, -⟩, -⟩, -⟩, -⟩, -⟩, -⟩ := e
  have hi := Host.reduce_andi_all _ _ _ _ _ h0 i
  have hc : Ideal.cmp .olt (max (x0 i) (-(x0 i))) (Ideal.ofBits .f32 0x7F800000#32) = 1#1 := hi
  rw [inf_f32] at hc
  have hlt : max (x0 i) (-(x0 i)) < ⊤ := by
    unfold Ideal.cmp at hc
    cases hd : decide (max (x0 i) (-(x0 i)) < ⊤) with
    | true => exact of_decide_eq_true hd
    | false => simp only [hd] at hc; exact absurd hc (by decide)
  exact real_of_abs_lt_top _ hlt

/-- Under the kernel's precondition every entry of the start table in the launch memory is a real number. -/
theorem start_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S10000x64.Idx) :
    ∃ r : ℝ, m ((c.tc : Thread Cert.KernelIdeal.nD Cert.KernelIdeal.τ).loc Cert.KernelIdeal.main_arg0) i = (r : EReal) :=
  real_of_pre _ _ _ _ _ _ _ _ (h c) i

end Cert.FiniteStart

end
-- ==== Proof.lean ====
/-
  The kernel and the reference compute one network, so they end with equal results.

  The reference runs a hypergraph layer twice on top of the start table x (the points' features): each layer reads only
  tables that no layer changes, so both give the same Y, the iterates are x, Y + x, Y + (Y + x), and the result is their
  mean, (0 + x + (Y + x) + (Y + (Y + x))) / 3. The kernel evaluates the layer once and returns x + Y. On the extended
  reals the two agree at every entry as soon as x is a real number there — which the precondition gives — whatever Y
  is: for real Y it is arithmetic, and an infinite Y makes both sides that infinity.
  That both programs form the SAME Y is entry-by-entry bookkeeping with no arithmetic law in it. The kernel's first call
  multiplies a block of incidence rows by the joined table [geo | seq | poi] once and cuts the product into its three
  column groups, where the reference multiplies three times; the seven messages, the fusion by weights and bias and
  the gating by the users' features are spelt alike; the kernel's second call adds the start block to incidence ·
  embeddings block by block, and its roundings to bf16 are the identity on the extended reals.
  The three frames: the reference is a plain host program whose run is read back operation by operation; the kernel
  program is two staged calls between host operations, each call run block by block over its grid, at the word level
  and at the ideal values alike. Nothing was rewritten by idealization, so the preservation claim is empty.
-/
import proofs.«146408_g23742579212952_cont_8to1_365_25_alg».proof.Defs
import proofs.«146408_g23742579212952_cont_8to1_365_25_alg».proof.Proof.Gen.Kernel
import proofs.«146408_g23742579212952_cont_8to1_365_25_alg».proof.Proof.Gen.KernelIdeal
import proofs.«146408_g23742579212952_cont_8to1_365_25_alg».proof.Proof.Gen.ReferenceIdeal
import proofs.«146408_g23742579212952_cont_8to1_365_25_alg».proof.Proof.Gen.Pre_finite_inputs
import proofs.«146408_g23742579212952_cont_8to1_365_25_alg».proof.Proof.KFrameRun
import proofs.«146408_g23742579212952_cont_8to1_365_25_alg».proof.Proof.FrameRun
import proofs.«146408_g23742579212952_cont_8to1_365_25_alg».proof.Proof.KernelNet
import proofs.«146408_g23742579212952_cont_8to1_365_25_alg».proof.Proof.RefNet
import proofs.«146408_g23742579212952_cont_8to1_365_25_alg».proof.Proof.FiniteStart
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_kernel : Cert.frame_Kernel := fun m ρ _ => Cert.Kernel.Frame.frame m ρ

/-- So does the kernel program at the ideal values. -/
theorem frame_kernelIdeal : Cert.frame_KernelIdeal := fun m ρ _ => Cert.KernelIdeal.Frame.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealization rewrote nothing. -/
theorem preserves : Cert.preserves_Kernel_KernelIdeal := trivial

/-- Both programs end with the network of the argument arrays: the kernel by its two calls read block by block, the
    reference by the mean of its three iterates, the start table being real under the precondition. -/
theorem algebraic : Cert.algebraic_KernelIdeal_ReferenceIdeal := by
  intro m ρ m' ρ' hpre hagree
  refine ⟨fun c => Cert.HyperConv.netArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.NetRun.run m ρ, ?_⟩
  refine (θ_run Cert.ReferenceIdeal.defs _ _).mono (fun r h c => ⟨(h c).1.trans ?_, (h c).2⟩)
    (Cert.RefNet.run m' ρ' (fun c i => by rw [(hagree c).1]; exact Cert.FiniteStart.start_real m hpre c i))
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
